-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x128 : Shape := ⟨3, ![64, 4096, 128]⟩
abbrev S64 : Shape := ⟨1, ![64]⟩
abbrev S_ : Shape := ⟨0, ![]⟩

class Facts : Prop where
  bcast_S_S64x4096x128 : S_.BroadcastsInDim S64x4096x128 (![] : Fin 0 → Fin S64x4096x128.rank)
  reducesTo_S64x4096x128_S_d0_1_2 : S64x4096x128.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x4096x128 .f32) (main_arg1 : IVec S64 32) : IVec S_ 1 :=
  let main_v0 : FVec F S64x4096x128 .f32 := Host.absf main_arg0
  let main_cst : FVec F S_ .f32 := constant S_ .f32 0x7F800000#32
  let main_v1 : FVec F S64x4096x128 .f32 := broadcastInDim S64x4096x128 ![] bcast_S_S64x4096x128 main_cst
  let main_v2 : IVec S64x4096x128 1 := cmpf .olt main_v0 main_v1
  let main_c : IVec S_ 1 := constantI S_ 1 1#1
  let main_v3 : IVec S_ 1 := (fun x v => Host.reduce IntOp.andi x v reducesTo_S64x4096x128_S_d0_1_2 h_S_) main_v2 main_c
  let main_c_0 : IVec S_ 32 := constantI S_ 32 0#32
  let main_v4 : IVec S64 32 := broadcastInDim S64 ![] bcast_S_S64 main_c_0
  let main_v5 : IVec S64 1 := cmpi .ne main_arg1 main_v4
  let main_c_1 : IVec S_ 1 := constantI S_ 1 1#1
  let main_v6 : IVec S_ 1 := (fun x v => Host.reduce IntOp.andi x v reducesTo_S64_S_d0 h_S_) main_v5 main_c_1
  let main_v7 : IVec S_ 1 := andi main_v3 main_v6
  main_v7
-- ==== Kernel.lean ====
abbrev S64x4096x128 : Shape := ⟨3, ![64, 4096, 128]⟩
abbrev S64 : Shape := ⟨1, ![64]⟩
abbrev S64x1x1 : Shape := ⟨3, ![64, 1, 1]⟩
abbrev S2x4096x128 : Shape := ⟨3, ![2, 4096, 128]⟩
abbrev S2x1x1 : Shape := ⟨3, ![2, 1, 1]⟩
abbrev S2x1x128 : Shape := ⟨3, ![2, 1, 128]⟩
abbrev S2x512x128 : Shape := ⟨3, ![2, 512, 128]⟩
abbrev S2x512x1 : Shape := ⟨3, ![2, 512, 1]⟩
abbrev S2x128 : Shape := ⟨2, ![2, 128]⟩

abbrev nBuf : Space → Nat
  | .hbm => 5
  | .vmem => 6
  | .smem => 0
  | _ => 0

abbrev bufTy : (tb : Table) → Fin (tcTables nBuf tb) → BufTy
  | .hbm, ⟨0, _⟩ => ⟨S64x4096x128, .f32⟩
  | .hbm, ⟨1, _⟩ => ⟨S64, .i32⟩
  | .hbm, ⟨2, _⟩ => ⟨S64, .f32⟩
  | .hbm, ⟨3, _⟩ => ⟨S64x1x1, .f32⟩
  | .hbm, ⟨4, _⟩ => ⟨S64x4096x128, .f32⟩
  | .local _ .vmem, ⟨0, _⟩ => ⟨S2x4096x128, .f32⟩
  | .local _ .vmem, ⟨1, _⟩ => ⟨S2x4096x128, .f32⟩
  | .local _ .vmem, ⟨2, _⟩ => ⟨S2x1x1, .f32⟩
  | .local _ .vmem, ⟨3, _⟩ => ⟨S2x1x1, .f32⟩
  | .local _ .vmem, ⟨4, _⟩ => ⟨S2x4096x128, .f32⟩
  | .local _ .vmem, ⟨5, _⟩ => ⟨S2x4096x128, .f32⟩
  | _, _ => ⟨S64x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c512_i32 : BitVec 32 := 512#32
  let v22 : BitVec 32 := Scalar.muli arg4 c512_i32
  v22
def k0_off1 (k0_t1 : Fin k0_t1_loop.trips) : Fin 3 → Nat :=
  let c0_16 : Index := 0#32
  let c0_i32 : BitVec 32 := 0#32
  let c1_i32 : BitVec 32 := 1#32
  let arg4 : BitVec 32 := Scf.iv c0_i32 c1_i32 k0_t1
  let c512_i32 : BitVec 32 := 512#32
  let v22 : BitVec 32 := Scalar.muli arg4 c512_i32
  let v23 : BitVec 32 := v22
  let v24 : Index := Scalar.indexCast v23
  let c0_17 : Index := 0#32
  ![0, v24.toNat, 0]
@[reducible] def k0_t2_loop : Scf.Loop 32 :=
  let c0_i32_7 : BitVec 32 := 0#32
  let c8_i32_8 : BitVec 32 := 8#32
  let v14 : BitVec 32 := Scalar.addi c0_i32_7 c8_i32_8
  let c1_i32_9 : BitVec 32 := 1#32
  ⟨c0_i32_7, v14, c1_i32_9⟩
def k0_mult2 (k0_t2 : Fin k0_t2_loop.trips) : BitVec 32 :=
  let c0_i32_7 : BitVec 32 := 0#32
  let c1_i32_9 : BitVec 32 := 1#32
  let arg4 : BitVec 32 := Scf.iv c0_i32_7 c1_i32_9 k0_t2
  let c512_i32 : BitVec 32 := 512#32
  let v22 : BitVec 32 := Scalar.muli arg4 c512_i32
  v22
def k0_off2 (k0_t2 : Fin k0_t2_loop.trips) : Fin 3 → Nat :=
  let c0_16 : Index := 0#32
  let c0_i32_7 : BitVec 32 := 0#32
  let c1_i32_9 : BitVec 32 := 1#32
  let arg4 : BitVec 32 := Scf.iv c0_i32_7 c1_i32_9 k0_t2
  let c512_i32 : BitVec 32 := 512#32
  let v22 : BitVec 32 := Scalar.muli arg4 c512_i32
  let v23 : BitVec 32 := v22
  let v24 : Index := Scalar.indexCast v23
  let c0_17 : Index := 0#32
  ![0, v24.toNat, 0]
@[reducible] def k0_t3_loop : Scf.Loop 32 :=
  let c0_i32_12 : BitVec 32 := 0#32
  let c8_i32_13 : BitVec 32 := 8#32
  let v21 : BitVec 32 := Scalar.addi c0_i32_12 c8_i32_13
  let c1_i32_14 : BitVec 32 := 1#32
  ⟨c0_i32_12, v21, c1_i32_14⟩
def k0_mult3 (k0_t3 : Fin k0_t3_loop.trips) : BitVec 32 :=
  let c0_i32_12 : BitVec 32 := 0#32
  let c1_i32_14 : BitVec 32 := 1#32
  let arg4 : BitVec 32 := Scf.iv c0_i32_12 c1_i32_14 k0_t3
  let c512_i32 : BitVec 32 := 512#32
  let v22 : BitVec 32 := Scalar.muli arg4 c512_i32
  v22
def k0_off3 (k0_t3 : Fin k0_t3_loop.trips) : Fin 3 → Nat :=
  let c0_16 : Index := 0#32
  let c0_i32_12 : BitVec 32 := 0#32
  let c1_i32_14 : BitVec 32 := 1#32
  let arg4 : BitVec 32 := Scf.iv c0_i32_12 c1_i32_14 k0_t3
  let c512_i32 : BitVec 32 := 512#32
  let v22 : BitVec 32 := Scalar.muli arg4 c512_i32
  let v23 : BitVec 32 := v22
  let v24 : Index := Scalar.indexCast v23
  let c0_17 : Index := 0#32
  ![0, v24.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64_S64x1x1 : S64.ShapeCasts S64x1x1
  inb_S2x1x1_S2x1x1_0_0_0 : ∀ a, (![0, 0, 0] : Fin 3 → Nat) a + S2x1x1.size a ≤ S2x1x1.size a
  h_S2x1x1 : 0 < S2x1x1.numel
  shapeCasts_S2x1x1_S2x1x1 : S2x1x1.ShapeCasts S2x1x1
  h_S2x512x128 : 0 < S2x512x128.numel
  iota_S2x512x1_d1_w32 : S2x512x1.Iotas .tc 32 [1]
  broadcasts_S2x1x1_S2x512x1 : S2x1x1.Broadcasts S2x512x1
  natLt_1_32 : 1 < 32
  broadcasts_S2x512x1_S2x512x128 : S2x512x1.Broadcasts S2x512x128
  reduces_S2x512x128_S2x128 : S2x512x128.Reduces [1] S2x128
  shapeCasts_S2x128_S2x1x128 : S2x128.ShapeCasts S2x1x128
  broadcasts_S2x1x1_S2x1x128 : S2x1x1.Broadcasts S2x1x128
  broadcasts_S2x1x128_S2x512x128 : S2x1x128.Broadcasts S2x512x128
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S2x512x128.size a ≤ S2x4096x128.size a
  k0_t2_ok : k0_t2_loop.OK
  k0_mult2_dvd : ∀ k0_t2 : Fin k0_t2_loop.trips, 512 ∣ (k0_mult2 k0_t2).toNat
  k0_off2_inb : ∀ k0_t2 : Fin k0_t2_loop.trips, ∀ a, (k0_off2 k0_t2) a + S2x512x128.size a ≤ S2x4096x128.size a
  k0_t3_ok : k0_t3_loop.OK
  k0_mult3_dvd : ∀ k0_t3 : Fin k0_t3_loop.trips, 512 ∣ (k0_mult3 k0_t3).toNat
  k0_off3_inb : ∀ k0_t3 : Fin k0_t3_loop.trips, ∀ a, (k0_off3 k0_t3) a + S2x512x128.size a ≤ S2x4096x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4096x128.size a ≤ S64x4096x128.size a
  hwx0_0 : ∀ i : grid0.Coords, EltTy.bits .f32 = 32 ∨ (Rect.block (s := S64x4096x128) S2x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1.size a ≤ S64x1x1.size a
  hwx0_1 : ∀ i : grid0.Coords, EltTy.bits .f32 = 32 ∨ (Rect.block (s := S64x1x1) S2x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x4096x128.size a ≤ S64x4096x128.size a
  hwx0_2 : ∀ i : grid0.Coords, EltTy.bits .f32 = 32 ∨ (Rect.block (s := S64x4096x128) S2x4096x128.size (cc0_transform_2 i) (hinb0_2 i)).WholeWords (EltTy.packing .f32)

variable [Facts₀]

abbrev win0_0 : Pipeline.Window sig grid0 :=
  Pipeline.Window.ofSpec (Memref.whole main_arg0) S2x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x4096x128 : Shape := ⟨3, ![64, 4096, 128]⟩
abbrev S64 : Shape := ⟨1, ![64]⟩
abbrev S4096 : Shape := ⟨1, ![4096]⟩
abbrev S1x4096 : Shape := ⟨2, ![1, 4096]⟩
abbrev S64x1 : Shape := ⟨2, ![64, 1]⟩
abbrev S64x4096 : Shape := ⟨2, ![64, 4096]⟩
abbrev S64x4096x1 : Shape := ⟨3, ![64, 4096, 1]⟩
abbrev S_ : Shape := ⟨0, ![]⟩
abbrev S64x128 : Shape := ⟨2, ![64, 128]⟩
abbrev S64x1x128 : Shape := ⟨3, ![64, 1, 128]⟩

abbrev nBuf : Space → Nat
  | .hbm => 41
  | .vmem => 0
  | .smem => 0
  | _ => 0

abbrev bufTy : (tb : Table) → Fin (tcTables nBuf tb) → BufTy
  | .hbm, ⟨0, _⟩ => ⟨S64x4096x128, .f32⟩
  | .hbm, ⟨1, _⟩ => ⟨S64, .i32⟩
  | .hbm, ⟨2, _⟩ => ⟨S4096, .i32⟩
  | .hbm, ⟨3, _⟩ => ⟨S1x4096, .i32⟩
  | .hbm, ⟨4, _⟩ => ⟨S64x1, .i32⟩
  | .hbm, ⟨5, _⟩ => ⟨S64x4096, .i32⟩
  | .hbm, ⟨6, _⟩ => ⟨S64x4096, .i32⟩
  | .hbm, ⟨7, _⟩ => ⟨S64x4096, .i1⟩
  | .hbm, ⟨8, _⟩ => ⟨S64x4096, .f32⟩
  | .hbm, ⟨9, _⟩ => ⟨S64x4096x1, .f32⟩
  | .hbm, ⟨10, _⟩ => ⟨S64, .f32⟩
  | .hbm, ⟨11, _⟩ => ⟨S64x1, .f32⟩
  | .hbm, ⟨12, _⟩ => ⟨S64x4096x128, .f32⟩
  | .hbm, ⟨13, _⟩ => ⟨S64x4096x128, .f32⟩
  | .hbm, ⟨14, _⟩ => ⟨S_, .f32⟩
  | .hbm, ⟨15, _⟩ => ⟨S64x128, .f32⟩
  | .hbm, ⟨16, _⟩ => ⟨S64x128, .f32⟩
  | .hbm, ⟨17, _⟩ => ⟨S64x128, .f32⟩
  | .hbm, ⟨18, _⟩ => ⟨S64x1x128, .f32⟩
  | .hbm, ⟨19, _⟩ => ⟨S64x4096x128, .f32⟩
  | .hbm, ⟨20, _⟩ => ⟨S64x4096x128, .f32⟩
  | .hbm, ⟨21, _⟩ => ⟨S64x4096x128, .f32⟩
  | .hbm, ⟨22, _⟩ => ⟨S64x4096x128, .f32⟩
  | .hbm, ⟨23, _⟩ => ⟨S64x4096x128, .f32⟩
  | .hbm, ⟨24, _⟩ => ⟨S_, .f32⟩
  | .hbm, ⟨25, _⟩ => ⟨S64x128, .f32⟩
  | .hbm, ⟨26, _⟩ => ⟨S_, .f32⟩
  | .hbm, ⟨27, _⟩ => ⟨S64x1, .f32⟩
  | .hbm, ⟨28, _⟩ => ⟨S64x1, .f32⟩
  | .hbm, ⟨29, _⟩ => ⟨S64x128, .f32⟩
  | .hbm, ⟨30, _⟩ => ⟨S64x128, .f32⟩
  | .hbm, ⟨31, _⟩ => ⟨S64x128, .f32⟩
  | .hbm, ⟨32, _⟩ => ⟨S_, .f32⟩
  | .hbm, ⟨33, _⟩ => ⟨S64x128, .f32⟩
  | .hbm, ⟨34, _⟩ => ⟨S64x128, .f32⟩
  | .hbm, ⟨35, _⟩ => ⟨S64x1x128, .f32⟩
  | .hbm, ⟨36, _⟩ => ⟨S64x4096x128, .f32⟩
  | .hbm, ⟨37, _⟩ => ⟨S64x4096x128, .f32⟩
  | .hbm, ⟨38, _⟩ => ⟨S64x1x128, .f32⟩
  | .hbm, ⟨39, _⟩ => ⟨S64x4096x128, .f32⟩
  | .hbm, ⟨40, _⟩ => ⟨S64x4096x128, .f32⟩
  | _, _ => ⟨S64x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst_0 : Ref sig .tc := ⟨.hbm, 24, rfl⟩
abbrev main_v21 : Ref sig .tc := ⟨.hbm, 25, rfl⟩
abbrev main_cst_1 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S64_S64x1_0 : S64.BroadcastsInDim S64x1 (![0] : Fin 1 → Fin S64x1.rank)
  bcast_S1x4096_S64x4096_0_1 : S1x4096.BroadcastsInDim S64x4096 (![0, 1] : Fin 2 → Fin S64x4096.rank)
  bcast_S64x1_S64x4096_0_1 : S64x1.BroadcastsInDim S64x4096 (![0, 1] : Fin 2 → Fin S64x4096.rank)
  bcast_S64x4096_S64x4096x1_0_1 : S64x4096.BroadcastsInDim S64x4096x1 (![0, 1] : Fin 2 → Fin S64x4096x1.rank)
  bcast_S64x4096x1_S64x4096x128_0_1_2 : S64x4096x1.BroadcastsInDim S64x4096x128 (![0, 1, 2] : Fin 3 → Fin S64x4096x128.rank)
  reducesTo_S64x4096x128_S64x128_d1 : S64x4096x128.ReducesTo [1] S64x128
  h_S_ : 0 < S_.numel
  bcast_S64x1_S64x128_0_1 : S64x1.BroadcastsInDim S64x128 (![0, 1] : Fin 2 → Fin S64x128.rank)
  bcast_S64x128_S64x1x128_0_2 : S64x128.BroadcastsInDim S64x1x128 (![0, 2] : Fin 2 → Fin S64x1x128.rank)
  bcast_S64x1x128_S64x4096x128_0_1_2 : S64x1x128.BroadcastsInDim S64x4096x128 (![0, 1, 2] : Fin 3 → Fin S64x4096x128.rank)
  bcast_S_S64x1 : S_.BroadcastsInDim S64x1 (![] : Fin 0 → Fin S64x1.rank)
  bcast_S_S64x128 : S_.BroadcastsInDim S64x128 (![] : Fin 0 → Fin S64x128.rank)

variable [Facts₀]

class Facts : Prop extends Facts₀ where

variable [Facts]
-- ==== Proof.KernelBlock.lean ====
/-
  What the kernel's body leaves in its output block, as one function of its two input blocks.

  The body makes three passes of eight chunks of 512 frames over its block of two utterances: the first adds up
  the masked frames, the second the masked squared deviations from the mean, the third writes each chunk's frames
  minus the mean over the clamped standard deviation. Here the three passes are opened: the running totals of the
  first two are plain recursions on the chunk number, and the eight chunks the third writes are all slabs of ONE
  block-wide function, so the block it leaves is that function.
-/
import proofs.«123654_j70119636074512_2_alg».proof.Proof.Gen.KernelIdeal.Frame
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.TcCoe Idealize.SL.Sem
open Idealize.ShloMosaic.ValueIdx

variable {F : FTy → Type} [FloatOps F]

/-! ## The running totals of the two accumulating passes -/

/-- The total of the masked frames before chunk `k`: chunk by chunk from zero. -/
def sumBefore (v0 : Vec F S2x1x1 .f32) (x0 : Vec F S2x4096x128 .f32) : ℕ → FVec F S2x1x128 .f32
  | 0 => k0_pay2
  | k + 1 => if h : k < k0_t1_loop.trips then
      k0_pay3 v0 ⟨k, h⟩ (sumBefore v0 x0 k) (View.ld x0 (Rect.unit (k0_off1 ⟨k, h⟩) S2x512x128.size (k0_off1_inb ⟨k, h⟩)))
    else sumBefore v0 x0 k

/-- The total of the masked squared deviations before chunk `k`. -/
def sqBefore (v0 : Vec F S2x1x1 .f32) (v10 : FVec F S2x1x128 .f32) (x0 : Vec F S2x4096x128 .f32) : ℕ → FVec F S2x1x128 .f32
  | 0 => k0_pay5
  | k + 1 => if h : k < k0_t2_loop.trips then
      k0_pay6 v0 v10 ⟨k, h⟩ (sqBefore v0 v10 x0 k) (View.ld x0 (Rect.unit (k0_off2 ⟨k, h⟩) S2x512x128.size (k0_off2_inb ⟨k, h⟩)))
    else sqBefore v0 v10 x0 k

section Opened
variable (𝒱 : Variants) (c : Dev nD) (bd : Option 𝒱.V) (i : grid0.Coords)
  (arg1 : Memref sig .tc .vmem S2x4096x128 .f32) (harg1 : arg1.IsWhole) (arg2 : Memref sig .tc .vmem S2x1x1 .f32) (harg2 : arg2.IsWhole)
  (arg3 : Memref sig .tc .vmem S2x4096x128 .f32) (harg3 : arg3.IsWhole)

/-- One chunk of the first pass yields its payload of the chunk it loads. -/
theorem trip1_eq (v0 : Vec F S2x1x1 .f32) (x0 : Vec F S2x4096x128 .f32) (k : Fin k0_t1_loop.trips) (acc : FVec F S2x1x128 .f32) :
    tripR_k0_t1 (F := F) 𝒱 c bd i arg1 harg1 arg2 harg2 arg3 harg3 v0 (harg1.unread x0) k acc
      = k0_pay3 v0 k acc (View.ld x0 (Rect.unit (k0_off1 k) S2x512x128.size (k0_off1_inb k))) := by
  unfold tripR_k0_t1 trip_k0_t1
  dsimp only
  rw [View.readAt_eq_ld, harg1.read_unread]

theorem trip2_eq (v0 : Vec F S2x1x1 .f32) (v10 : FVec F S2x1x128 .f32) (x0 : Vec F S2x4096x128 .f32) (k : Fin k0_t2_loop.trips) (acc : FVec F S2x1x128 .f32) :
    tripR_k0_t2 (F := F) 𝒱 c bd i arg1 harg1 arg2 harg2 arg3 harg3 v0 v10 (harg1.unread x0) k acc
      = k0_pay6 v0 v10 k acc (View.ld x0 (Rect.unit (k0_off2 k) S2x512x128.size (k0_off2_inb k))) := by
  unfold tripR_k0_t2 trip_k0_t2
  dsimp only
  rw [View.readAt_eq_ld, harg1.read_unread]

/-- The carried value of the first pass is the running total. -/
theorem st1_eq (v0 : Vec F S2x1x1 .f32) (x0 : Vec F S2x4096x128 .f32) (n : ℕ) :
    st_k0_t1 (F := F) 𝒱 c bd i arg1 harg1 arg2 harg2 arg3 harg3 v0 (harg1.unread x0) k0_pay2 n = sumBefore v0 x0 n := by
  induction n with
  | zero => rfl
  | succ k ih =>
    rw [st_k0_t1.eq_2, sumBefore]
    unfold st_k0_t1Step
    by_cases h : k < k0_t1_loop.trips
    · rw [dif_pos h, dif_pos h, trip1_eq, ih]
    · rw [dif_neg h, dif_neg h, ih]

theorem st2_eq (v0 : Vec F S2x1x1 .f32) (v10 : FVec F S2x1x128 .f32) (x0 : Vec F S2x4096x128 .f32) (n : ℕ) :
    st_k0_t2 (F := F) 𝒱 c bd i arg1 harg1 arg2 harg2 arg3 harg3 v0 v10 (harg1.unread x0) k0_pay5 n = sqBefore v0 v10 x0 n := by
  induction n with
  | zero => rfl
  | succ k ih =>
    rw [st_k0_t2.eq_2, sqBefore]
    unfold st_k0_t2Step
    by_cases h : k < k0_t2_loop.trips
    · rw [dif_pos h, dif_pos h, trip2_eq, ih]
    · rw [dif_neg h, dif_neg h, ih]

/-- Every piece the third pass writes is one chunk's slab: its payload of the chunk it loads, at the chunk's rectangle. -/
theorem piece_of_mem (v0 : Vec F S2x1x1 .f32) (v10 v15 : FVec F S2x1x128 .f32) (x0 : Vec F S2x4096x128 .f32) :
    ∀ (n : ℕ) (p : View.Piece (Elt F) S2x4096x128 .f32),
      p ∈ pb_k0_t3 (F := F) 𝒱 c bd i arg1 harg1 arg2 harg2 arg3 harg3 v0 v10 v15 (harg1.unread x0) n →
      ∃ k : Fin k0_t3_loop.trips, p = ⟨Rect.unit (k0_off3 k) S2x512x128.size (k0_off3_inb k),
        k0_pay7 v0 v10 v15 (View.ld x0 (Rect.unit (k0_off3 k) S2x512x128.size (k0_off3_inb k)))⟩
  | 0, p, hp => absurd hp List.not_mem_nil
  | n + 1, p, hp => by
    rw [pb_k0_t3.eq_2] at hp
    unfold pb_k0_t3Step at hp
    by_cases h : n < k0_t3_loop.trips
    · rw [dif_pos h] at hp
      rcases List.mem_append.mp hp with h1 | h2
      · refine ⟨⟨n, h⟩, ?_⟩
        unfold tripL_k0_t3 trip_k0_t3 at h1
        dsimp only at h1
        rw [View.readAt_eq_ld, harg1.read_unread] at h1
        exact List.mem_singleton.mp h1
      · exact piece_of_mem v0 v10 v15 x0 n p h2
    · rw [dif_neg h] at hp
      exact piece_of_mem v0 v10 v15 x0 n p hp

end Opened

/-! ## The block the third pass leaves, at the extended reals -/

/-- The clamped standard deviations, from the lengths and the totals of squares: the total over `max (n - 1) 1`, its root,
    and the clamp from below. -/
def sdOf (v0 : Vec F S2x1x1 .f32) (v15 : FVec F S2x1x128 .f32) : FVec F S2x1x128 .f32 :=
  maximumf (sqrt (divf v15 (broadcastTo S2x1x128
      (maximumf (subf (k0_pay1 v0) (broadcast S2x1x1 (Scalar.ofBits .f32 0x3F800000#32))) (broadcast S2x1x1 (Scalar.ofBits .f32 0x3F800000#32)))
      broadcasts_S2x1x1_S2x1x128)))
    (broadcast S2x1x128 (Scalar.ofBits .f32 0x2EDBE6FF#32))

/-- A chunk's payload: the chunk minus the means over the standard deviations, both spread over the chunk's frames. -/
theorem pay7_eq (v0 : Vec F S2x1x1 .f32) (v10 v15 : FVec F S2x1x128 .f32) (v25 : Vec F S2x512x128 .f32) :
    k0_pay7 v0 v10 v15 v25 = divf (subf v25 (broadcastTo S2x512x128 (k0_pay4 v0 v10) broadcasts_S2x1x128_S2x512x128))
      (broadcastTo S2x512x128 (sdOf v0 v15) broadcasts_S2x1x128_S2x512x128) := rfl

/-- Frame `l` of utterance `p`, feature `c`, minus that utterance's mean over its standard deviation. -/
def blockAt (M SD : FVec Ideal S2x1x128 .f32) (x0 : Vec Ideal S2x4096x128 .f32) (p : Fin 2) (l : Fin 4096) (c : Fin 128) : EReal :=
  Ideal.div (x0 (ix3 p l c) - M (ix3 p 0 c)) (SD (ix3 p 0 c))

/-- The same over the whole block. -/
def blockFn (M SD : FVec Ideal S2x1x128 .f32) (x0 : Vec Ideal S2x4096x128 .f32) : S2x4096x128.Idx → EReal :=
  fun y => blockAt M SD x0 (y 0) (y 1) (y 2)

/-- Chunk `k` of a pass covers frames `512 k` to `512 k + 511` of both utterances: where its rectangle puts (p, r, c). -/
theorem chunk_emb (off : Fin 3 → ℕ) (k : ℕ) (hoff : off = ![0, 512 * k, 0]) (inb : ∀ a, off a + S2x512x128.size a ≤ S2x4096x128.size a)
    (p : Fin 2) (r : Fin 512) (c : Fin 128) (hl : 512 * k + r.val < 4096) :
    (Rect.unit (s := S2x4096x128) off S2x512x128.size inb).emb (ix3 p r c) = ix3 p ⟨512 * k + r.val, hl⟩ c := by
  subst hoff
  funext a
  refine Fin.ext ?_
  rw [Rect.emb_apply]
  match a with
  | ⟨0, _⟩ => show 0 + 1 * p.val = p.val; omega
  | ⟨1, _⟩ => show 512 * k + 1 * r.val = 512 * k + r.val; omega
  | ⟨2, _⟩ => show 0 + 1 * c.val = c.val; omega

theorem trips3_le (k : Fin k0_t3_loop.trips) : k.val < 8 := Nat.lt_of_lt_of_le k.isLt k0_t3_abs.2.1
theorem trips1_le (k : Fin k0_t1_loop.trips) : k.val < 8 := Nat.lt_of_lt_of_le k.isLt k0_t1_abs.2.1
theorem trips2_le (k : Fin k0_t2_loop.trips) : k.val < 8 := Nat.lt_of_lt_of_le k.isLt k0_t2_abs.2.1

/-- A vector over [2, 1, 128] spread over the 512 frames of a chunk reads its own (p, 0, c). -/
theorem spread_apply (M : FVec Ideal S2x1x128 .f32) (p : Fin 2) (r : Fin 512) (c : Fin 128) :
    broadcastTo S2x512x128 M broadcasts_S2x1x128_S2x512x128 (ix3 p r c) = M (ix3 p 0 c) :=
  broadcastTo_apply M broadcasts_S2x1x128_S2x512x128 (ix3 p r c) (ix3 p 0 c) (fun a => match a with
    | ⟨0, _⟩ => rfl
    | ⟨1, _⟩ => rfl
    | ⟨2, _⟩ => rfl)

/-- Chunk `k`'s payload at (p, r, c) is the block function at the frame the chunk's rectangle puts it. -/
theorem pay7_apply (v0 : Vec Ideal S2x1x1 .f32) (v10 v15 : FVec Ideal S2x1x128 .f32) (x0 : Vec Ideal S2x4096x128 .f32)
    (k : Fin k0_t3_loop.trips) (x : S2x512x128.Idx) :
    k0_pay7 v0 v10 v15 (View.ld x0 (Rect.unit (k0_off3 k) S2x512x128.size (k0_off3_inb k))) x
      = blockFn (k0_pay4 v0 v10) (sdOf v0 v15) x0 ((Rect.unit (s := S2x4096x128) (k0_off3 k) S2x512x128.size (k0_off3_inb k)).emb x) := by
  obtain ⟨p, r, c, rfl⟩ : ∃ (p : Fin 2) (r : Fin 512) (c : Fin 128), x = ix3 p r c := ⟨x 0, x 1, x 2, eq_ix3 x⟩
  have hk := trips3_le k
  have hl : 512 * k.val + r.val < 4096 := by have := r.isLt; omega
  rw [pay7_eq, divf_apply, subf_apply, spread_apply, spread_apply]
  show Ideal.div (x0 ((Rect.unit (s := S2x4096x128) (k0_off3 k) S2x512x128.size (k0_off3_inb k)).emb (ix3 p r c)) - _) _ = _
  rw [chunk_emb (k0_off3 k) k.val (k0_off3_eq k) (k0_off3_inb k) p r c hl]
  rfl

section Run
variable (c : Dev nD) (i : grid0.Coords)
  (arg1 : Memref sig .tc .vmem S2x4096x128 .f32) (harg1 : arg1.IsWhole) (arg2 : Memref sig .tc .vmem S2x1x1 .f32) (harg2 : arg2.IsWhole)
  (arg3 : Memref sig .tc .vmem S2x4096x128 .f32) (harg3 : arg3.IsWhole)

/-- THE BLOCK THE BODY LEAVES: with the means `M` (the first pass's total over `max n 1`) and the standard deviations `SD`
    (from the second pass's total), every frame minus its utterance's mean over its standard deviation. -/
theorem out_block (x0 : Vec Ideal S2x4096x128 .f32) (x1 : Vec Ideal S2x1x1 .f32) :
    out0_A_2 (F := Ideal) c i arg1 harg1 arg2 harg2 arg3 harg3 x0 x1
      = blockFn (k0_pay4 x1 (sumBefore x1 x0 k0_t1_loop.trips))
          (sdOf x1 (sqBefore x1 (sumBefore x1 x0 k0_t1_loop.trips) x0 k0_t2_loop.trips)) x0 := by
  unfold out0_A_2
  rw [View.read_writes_junk_eq_canon]
  funext y
  have hcov := cover0_A_2 (F := Ideal) c i arg1 harg1 arg2 harg2 arg3 harg3 x0 x1 y
  refine View.canon_apply_of_pieces _ _ ?_ y hcov
  intro p hp x
  unfold kernelRun0_A at hp
  dsimp only at hp
  have hz : (![0, 0, 0] : Fin 3 → ℕ) = fun _ => 0 := by
    funext a; match a with | ⟨0, _⟩ => rfl | ⟨1, _⟩ => rfl | ⟨2, _⟩ => rfl
  rw [View.readAt_eq_ld, harg2.read_unread, View.ld_unit_zero (S := S2x1x1) hz, st1_eq, st2_eq] at hp
  obtain ⟨k, rfl⟩ := piece_of_mem Variants.none c none i arg1 harg1 arg2 harg2 arg3 harg3 x1 _ _ x0 _ p hp
  exact pay7_apply x1 _ _ x0 k x

end Run

end Cert.KernelIdeal.Block

end
-- ==== Proof.Spec.lean ====
/-
  The per-utterance normalisation, as plain functions on the extended reals.

  An utterance is a row of 4096 frames per feature; only the first `n` frames are valid. With the
  indicator `ind n l` (1 for `l < n`, else 0) the masked sum of a row `x` is `∑ l, x l · ind n l`, its
  mean that sum over a divisor `dμ`, the masked squared deviations `((x l - μ) · ind n l)²` summed and
  divided by a divisor `dσ` give the variance, and the result is `(x l - μ) / max (√variance) clamp`.
  The two programs differ only in the divisors: one divides by `max n 1` and `max (n - 1) 1`, the other by
  `n` and `n - 1`.
-/
import Idealize.ShloMosaic.PureOps.Ideal
import Idealize.ShloMosaic.Lib.ValueIdx

noncomputable section

namespace Cert.FeatNorm

open Idealize.ShloMosaic Idealize.ShloMosaic.ValueIdx

/-- The number of frames of a row. -/
abbrev frames : ℕ := 4096

/-- 1 on the frames before the length `n`, 0 on the padding. -/
def ind (n : ℤ) (l : ℕ) : EReal := if (l : ℤ) < n then 1 else 0

/-- The lower clamp of the standard deviation: the f32 nearest `1e-10`. -/
def clampC : EReal := Ideal.ofBits .f32 0x2EDBE6FF#32

/-- The masked sum of a row. -/
def msum (x : ℕ → EReal) (n : ℤ) : EReal := ∑ l ∈ Finset.range frames, x l * ind n l

/-- The masked mean over the divisor `d`. -/
def mean (d : EReal) (x : ℕ → EReal) (n : ℤ) : EReal := Ideal.div (msum x n) d

/-- The masked deviation of frame `l` from `μ`. -/
def dev (μ : EReal) (x : ℕ → EReal) (n : ℤ) (l : ℕ) : EReal := (x l - μ) * ind n l

/-- The masked sum of squared deviations from `μ`. -/
def sqsum (μ : EReal) (x : ℕ → EReal) (n : ℤ) : EReal :=
  ∑ l ∈ Finset.range frames, dev μ x n l * dev μ x n l

/-- The clamped standard deviation from the sum of squares `q` over the divisor `d`. -/
def std (d q : EReal) : EReal := max (Ideal.sqrt (Ideal.div q d)) clampC

/-- Frame `l` of the row `x` of valid length `n`, normalised with mean divisor `dμ` and variance divisor `dσ`. -/
def normed (dμ dσ : EReal) (x : ℕ → EReal) (n : ℤ) (l : ℕ) : EReal :=
  Ideal.div (x l - mean dμ x n) (std dσ (sqsum (mean dμ x n) x n))

/-- A natural number as a frame number (those below 4096 are themselves). -/
def frameOf (l : ℕ) : Fin frames := ⟨l % frames, Nat.mod_lt _ (by norm_num)⟩

theorem frameOf_val (l : Fin frames) : frameOf l.val = l := Fin.ext (Nat.mod_eq_of_lt l.isLt)

/-- Row `(b, ·, c)` of a `[B, 4096, C]` array, as a function of the frame number. -/
def row {B C : ℕ} (X : (⟨3, ![B, frames, C]⟩ : Shape).Idx → EReal) (b : Fin B) (c : Fin C) : ℕ → EReal :=
  fun l => X (ix3 b (frameOf l) c)

theorem row_val {B C : ℕ} (X : (⟨3, ![B, frames, C]⟩ : Shape).Idx → EReal) (b : Fin B) (c : Fin C) (l : Fin frames) :
    row X b c l.val = X (ix3 b l c) := by
  unfold row; rw [frameOf_val]

/-- The whole normalised `[64, 4096, 128]` array from the features `X` and the lengths `len`, with the divisors
    given as functions of the length. -/
def normedArr (dμ dσ : ℤ → EReal) (X : (⟨3, ![64, frames, 128]⟩ : Shape).Idx → EReal) (len : Fin 64 → ℤ) :
    (⟨3, ![64, frames, 128]⟩ : Shape).Idx → EReal :=
  fun i => normed (dμ (len (i 0))) (dσ (len (i 0))) (row X (i 0) (i 2)) (len (i 0)) (i 1).val

/-- The divisors with the guards `max · 1`. -/
def dμK (n : ℤ) : EReal := max ((n : ℝ) : EReal) 1
def dσK (n : ℤ) : EReal := max (((n : ℝ) : EReal) - 1) 1
/-- The plain divisors. -/
def dμR (n : ℤ) : EReal := ((n : ℝ) : EReal)
def dσR (n : ℤ) : EReal := ((n : ℝ) : EReal) - 1

end Cert.FeatNorm

end
-- ==== Proof.KernelSums.lean ====
/-
  The kernel's two running totals and its block function, read at a point, are the specification's masked mean,
  masked sum of squared deviations and normalised frame, with the guarded divisors.

  A chunk of 512 frames adds to the running total of feature c of utterance p the masked frames
  512 k, ..., 512 k + 511 of the row; after the eight chunks the total is the masked sum over the 4096 frames. The
  mean is that total over max n 1, the second pass adds the squared masked deviations from it, and the standard
  deviation is the clamped root of their total over max (n - 1) 1.
-/
import proofs.«123654_j70119636074512_2_alg».proof.Proof.KernelBlock
import proofs.«123654_j70119636074512_2_alg».proof.Proof.Spec
import Idealize.ShloMosaic.PureOps.Ideal.Laws
import Idealize.ShloMosaic.Lib.Pipeline.Value
import Idealize.ShloMosaic.Lib.ValueIdx

noncomputable section

namespace Cert.KernelIdeal.Sums

open Cert.KernelIdeal Cert.KernelIdeal.Gen Cert.KernelIdeal.Block Cert.FeatNorm Idealize.ShloMosaic Idealize.ShloMosaic.ValueIdx Idealize.ShloMosaic.TcCoe

/-! ## Words -/

/-- Each accumulating pass makes eight trips. -/
theorem trips1 : k0_t1_loop.trips = 8 := by decide +kernel
theorem trips2 : k0_t2_loop.trips = 8 := by decide +kernel

/-- The first frame of chunk k, as the kernel computes it. -/
theorem frame_word1 : ∀ k : Fin k0_t1_loop.trips, Scalar.muli (Scf.iv 0#32 1#32 k) 512#32 = BitVec.ofNat 32 (512 * k.val) := by
  decide +kernel
theorem frame_word2 : ∀ k : Fin k0_t2_loop.trips, Scalar.muli (Scf.iv 0#32 1#32 k) 512#32 = BitVec.ofNat 32 (512 * k.val) := by
  decide +kernel

/-- The word 0x3F800000 denotes one. -/
theorem one_word : Ideal.ofBits .f32 0x3F800000#32 = (1 : EReal) := by
  simp [Ideal.ofBits, Ideal.ieee, -EReal.coe_mul]; norm_num

/-- Frame r of chunk k, as a 32-bit word read signed, is 512 k + r. -/
theorem toInt_frame (k : ℕ) (hk : k < 8) (r : Fin 512) :
    (BitVec.ofNat 32 r.val + BitVec.ofNat 32 (512 * k)).toInt = ((512 * k + r.val : ℕ) : ℤ) := by
  have h := r.isLt
  rw [BitVec.toInt_eq_toNat_cond, BitVec.toNat_add, BitVec.toNat_ofNat, BitVec.toNat_ofNat]
  have h2 : (r.val % 2 ^ 32 + 512 * k % 2 ^ 32) % 2 ^ 32 = 512 * k + r.val := by omega
  rw [h2, if_pos (by omega)]

/-- The one-bit outcome of a comparison, widened and converted, is one or zero. -/
theorem bit_float (b : Bool) :
    FloatOps.sitofp (F := Ideal) .f32 ((BitVec.ofBool b).setWidth 32) = if b then (1 : EReal) else 0 := by
  cases b
  · show (((((BitVec.ofBool false).setWidth 32).toInt : ℤ) : ℝ) : EReal) = 0
    have : ((BitVec.ofBool false).setWidth 32).toInt = 0 := by decide
    rw [this]; simp
  · show (((((BitVec.ofBool true).setWidth 32).toInt : ℤ) : ℝ) : EReal) = 1
    have : ((BitVec.ofBool true).setWidth 32).toInt = 1 := by decide
    rw [this]; simp

/-- The comparison of a frame number with a length, both as floats, converted back, is the indicator. -/
theorem mask_word (m : ℕ) (w : BitVec 32) (hw : w.toInt = (m : ℤ)) (n : ℤ) :
    FloatOps.sitofp (F := Ideal) .f32
        ((FloatOps.cmpf (F := Ideal) .olt (FloatOps.sitofp (F := Ideal) .f32 w) (((n : ℝ) : EReal) : Ideal .f32)).setWidth 32)
      = ind n m := by
  show FloatOps.sitofp (F := Ideal) .f32 ((BitVec.ofBool (decide ((((w.toInt : ℤ) : ℝ) : EReal) < ((n : ℝ) : EReal)))).setWidth 32) = _
  rw [bit_float, hw]
  unfold ind
  by_cases h : (m : ℤ) < n
  · rw [if_pos h, if_pos]
    exact decide_eq_true (EReal.coe_lt_coe_iff.2 (Int.cast_lt.2 h))
  · rw [if_neg h, if_neg]
    exact fun h' => h (Int.cast_lt.1 (EReal.coe_lt_coe_iff.1 (of_decide_eq_true h')))

/-! ## One chunk of the first pass -/

/-- The mask of a chunk whose first frame is the word w: frame number below the length, as a float. -/
def chunkMask (v0 : Vec Ideal S2x1x1 .f32) (w : BitVec 32) : FVec Ideal S2x512x1 .f32 :=
  sitofp .f32 (extui 32 (cmpf .olt
    (sitofp .f32 (addi (iota .tc S2x512x1 32 [1] iota_S2x512x1_d1_w32) (broadcast S2x512x1 w)))
    (broadcastTo S2x512x1 (k0_pay1 v0) broadcasts_S2x1x1_S2x512x1)) natLt_1_32)

/-- The payload of a chunk of the first pass: the running total plus the lane sum of the masked chunk. -/
theorem pay3_eq (v0 : Vec Ideal S2x1x1 .f32) (k : Fin k0_t1_loop.trips) (acc : FVec Ideal S2x1x128 .f32) (v25 : Vec Ideal S2x512x128 .f32) :
    k0_pay3 v0 k acc v25 = addf acc (shapeCast S2x1x128
      (multiReduction .add [1] S2x128
        (mulf v25 (broadcastTo S2x512x128 (chunkMask v0 (Scalar.muli (Scf.iv 0#32 1#32 k) 512#32)) broadcasts_S2x512x1_S2x512x128))
        0x00000000#32 reduces_S2x512x128_S2x128 (.inl rfl) rfl) shapeCasts_S2x128_S2x1x128) := rfl

/-- The lengths block re-cast to its own shape is itself. -/
theorem pay1_eq (v0 : Vec Ideal S2x1x1 .f32) : k0_pay1 v0 = v0 := shapeCast_self v0 _

/-- The chunk mask at (p, r) is the indicator of frame 512 k + r against the length of utterance p. -/
theorem chunkMask_apply (v0 : Vec Ideal S2x1x1 .f32) (n : Fin 2 → ℤ)
    (hn : ∀ p : Fin 2, v0 (ix3 p 0 0) = ((n p : ℝ) : EReal)) (k : ℕ) (hk : k < 8) (p : Fin 2) (r : Fin 512) :
    chunkMask v0 (BitVec.ofNat 32 (512 * k)) (ix3 p r 0) = ind (n p) (512 * k + r.val) := by
  have hb : broadcastTo S2x512x1 (k0_pay1 v0) broadcasts_S2x1x1_S2x512x1 (ix3 p r 0) = ((n p : ℝ) : EReal) := by
    rw [broadcastTo_apply (k0_pay1 v0) broadcasts_S2x1x1_S2x512x1 (ix3 p r 0) (ix3 p 0 0) (fun a => match a with
      | ⟨0, _⟩ => rfl
      | ⟨1, _⟩ => rfl
      | ⟨2, _⟩ => rfl), pay1_eq, hn]
  have hi : iota .tc S2x512x1 32 [1] iota_S2x512x1_d1_w32 (ix3 p r 0) = BitVec.ofNat 32 r.val :=
    iota_single_apply .tc S2x512x1 32 1 iota_S2x512x1_d1_w32 (ix3 p r 0)
  show FloatOps.sitofp (F := Ideal) .f32 ((FloatOps.cmpf (F := Ideal) .olt
      (FloatOps.sitofp (F := Ideal) .f32 (IntOp.addi (iota .tc S2x512x1 32 [1] iota_S2x512x1_d1_w32 (ix3 p r 0)) (BitVec.ofNat 32 (512 * k))))
      (broadcastTo S2x512x1 (k0_pay1 v0) broadcasts_S2x1x1_S2x512x1 (ix3 p r 0))).setWidth 32) = _
  rw [hb, hi]
  exact mask_word (512 * k + r.val) _ (toInt_frame k hk r) (n p)

/-- A vector over [2, 512, 1] spread over the 128 features reads its own (p, r, 0). -/
theorem spread_feat (M : FVec Ideal S2x512x1 .f32) (p : Fin 2) (r : Fin 512) (c : Fin 128) :
    broadcastTo S2x512x128 M broadcasts_S2x512x1_S2x512x128 (ix3 p r c) = M (ix3 p r 0) :=
  broadcastTo_apply M broadcasts_S2x512x1_S2x512x128 (ix3 p r c) (ix3 p r 0) (fun a => match a with
    | ⟨0, _⟩ => rfl
    | ⟨1, _⟩ => rfl
    | ⟨2, _⟩ => rfl)

/-- The lane sum over the frames of a chunk, re-cast to [2, 1, 128], at (p, 0, c): the sum over r of the chunk at (p, r, c). -/
theorem laneSum_apply (v : FVec Ideal S2x512x128 .f32) (p : Fin 2) (c : Fin 128) :
    shapeCast S2x1x128 (multiReduction .add [1] S2x128 v 0x00000000#32 reduces_S2x512x128_S2x128 (.inl rfl) rfl)
        shapeCasts_S2x128_S2x1x128 (ix3 p 0 c)
      = ∑ r : Fin 512, v (ix3 p r c) := by
  rw [shapeCast_apply _ shapeCasts_S2x128_S2x1x128 (ix3 p 0 c) (ix2 p c) (by
    rw [Shape.rowMajor_val_two, Shape.rowMajor_val_three]
    show p.val * 128 + c.val = (p.val * 1 + 0) * 128 + c.val
    omega)]
  refine (Ideal.multiReduction_add_single v 0x00000000#32 reduces_S2x512x128_S2x128 (.inl rfl) rfl (ix2 p c)).trans ?_
  show ∑ r : Fin 512, v (reduces_S2x512x128_S2x128.lift (ix2 p c) r) = _
  refine Finset.sum_congr rfl fun r _ => congrArg v ?_
  funext a
  match a with
  | ⟨0, _⟩ => rfl
  | ⟨1, _⟩ => rfl
  | ⟨2, _⟩ => rfl

/-- One chunk of the first pass at (p, 0, c): the running total plus the masked frames 512 k + r of the chunk. -/
theorem pay3_apply (v0 : Vec Ideal S2x1x1 .f32) (n : Fin 2 → ℤ)
    (hn : ∀ p : Fin 2, v0 (ix3 p 0 0) = ((n p : ℝ) : EReal)) (k : Fin k0_t1_loop.trips)
    (acc : FVec Ideal S2x1x128 .f32) (v25 : Vec Ideal S2x512x128 .f32) (p : Fin 2) (c : Fin 128) :
    k0_pay3 v0 k acc v25 (ix3 p 0 c)
      = acc (ix3 p 0 c) + ∑ r : Fin 512, v25 (ix3 p r c) * ind (n p) (512 * k.val + r.val) := by
  rw [pay3_eq, addf_apply, laneSum_apply, frame_word1]
  refine congrArg (_ + ·) (Finset.sum_congr rfl fun r _ => ?_)
  rw [mulf_apply, spread_feat, chunkMask_apply v0 n hn k.val (trips1_le k) p r]

/-! ## The first pass: the masked sum, and the mean -/

/-- A chunk loaded from the block, at (p, r, c), is frame 512 k + r of the row (p, c). -/
theorem chunk_row (x0 : Vec Ideal S2x4096x128 .f32) (off : Fin 3 → ℕ) (k : ℕ) (hk : k < 8) (hoff : off = ![0, 512 * k, 0])
    (inb : ∀ a, off a + S2x512x128.size a ≤ S2x4096x128.size a) (p : Fin 2) (r : Fin 512) (c : Fin 128) :
    View.ld x0 (Rect.unit (s := S2x4096x128) off S2x512x128.size inb) (ix3 p r c) = row x0 p c (512 * k + r.val) := by
  have hl : 512 * k + r.val < 4096 := by have := r.isLt; omega
  show x0 ((Rect.unit (s := S2x4096x128) off S2x512x128.size inb).emb (ix3 p r c)) = _
  rw [chunk_emb off k hoff inb p r c hl]
  exact (row_val x0 p c ⟨512 * k + r.val, hl⟩).symm

/-- The running total before chunk k is the masked sum of the first 512 k frames of the row. -/
theorem sumBefore_apply (x1 : Vec Ideal S2x1x1 .f32) (x0 : Vec Ideal S2x4096x128 .f32) (n : Fin 2 → ℤ)
    (hn : ∀ p : Fin 2, x1 (ix3 p 0 0) = ((n p : ℝ) : EReal)) (p : Fin 2) (c : Fin 128) (k : ℕ) (hk : k ≤ 8) :
    sumBefore x1 x0 k (ix3 p 0 c) = ∑ l ∈ Finset.range (512 * k), row x0 p c l * ind (n p) l := by
  induction k with
  | zero =>
    show Ideal.ofBits .f32 0x00000000#32 = _
    rw [Ideal.ofBits_zero_f32]; simp
  | succ k ih =>
    have hk' : k < k0_t1_loop.trips := by rw [trips1]; omega
    rw [sumBefore, dif_pos hk', pay3_apply x1 n hn ⟨k, hk'⟩ _ _ p c, ih (by omega)]
    rw [show 512 * (k + 1) = 512 * k + 512 by ring, Finset.sum_range_add]
    refine congrArg (_ + ·) ?_
    rw [← Fin.sum_univ_eq_sum_range (fun r => row x0 p c (512 * k + r) * ind (n p) (512 * k + r)) 512]
    refine Finset.sum_congr rfl fun r _ => ?_
    rw [chunk_row x0 _ k (by omega) (k0_off1_eq ⟨k, hk'⟩) _ p r c]

/-- The mean stage at (p, 0, c): the total over max n 1. -/
theorem pay4_apply (v0 : Vec Ideal S2x1x1 .f32) (v10 : FVec Ideal S2x1x128 .f32) (p : Fin 2) (c : Fin 128) :
    k0_pay4 v0 v10 (ix3 p 0 c) = Ideal.div (v10 (ix3 p 0 c)) (max (v0 (ix3 p 0 0)) 1) := by
  show Ideal.div (v10 (ix3 p 0 c)) (broadcastTo S2x1x128
      (maximumf (k0_pay1 v0) (broadcast S2x1x1 (Scalar.ofBits .f32 0x3F800000#32))) broadcasts_S2x1x1_S2x1x128 (ix3 p 0 c)) = _
  rw [broadcastTo_apply _ broadcasts_S2x1x1_S2x1x128 (ix3 p 0 c) (ix3 p 0 0) (fun a => match a with
    | ⟨0, _⟩ => rfl
    | ⟨1, _⟩ => rfl
    | ⟨2, _⟩ => rfl), maximumf_apply, pay1_eq]
  show Ideal.div _ (max _ (Ideal.ofBits .f32 0x3F800000#32)) = _
  rw [one_word]

/-- After the eight chunks the mean stage is the masked mean with the guarded divisor. -/
theorem mean_apply (x1 : Vec Ideal S2x1x1 .f32) (x0 : Vec Ideal S2x4096x128 .f32) (n : Fin 2 → ℤ)
    (hn : ∀ p : Fin 2, x1 (ix3 p 0 0) = ((n p : ℝ) : EReal)) (p : Fin 2) (c : Fin 128) :
    k0_pay4 x1 (sumBefore x1 x0 k0_t1_loop.trips) (ix3 p 0 c) = mean (dμK (n p)) (row x0 p c) (n p) := by
  rw [pay4_apply, trips1, sumBefore_apply x1 x0 n hn p c 8 (le_refl _), hn]
  rfl

/-! ## The second pass: the masked sum of squared deviations, and the standard deviation -/

/-- The payload of a chunk of the second pass: the running total plus the lane sum of the squared masked deviations. -/
theorem pay6_eq (v0 : Vec Ideal S2x1x1 .f32) (v10 : FVec Ideal S2x1x128 .f32) (k : Fin k0_t2_loop.trips)
    (acc : FVec Ideal S2x1x128 .f32) (v25 : Vec Ideal S2x512x128 .f32) :
    k0_pay6 v0 v10 k acc v25 = addf acc (shapeCast S2x1x128
      (multiReduction .add [1] S2x128
        (mulf
          (mulf (subf v25 (broadcastTo S2x512x128 (k0_pay4 v0 v10) broadcasts_S2x1x128_S2x512x128))
            (broadcastTo S2x512x128 (chunkMask v0 (Scalar.muli (Scf.iv 0#32 1#32 k) 512#32)) broadcasts_S2x512x1_S2x512x128))
          (mulf (subf v25 (broadcastTo S2x512x128 (k0_pay4 v0 v10) broadcasts_S2x1x128_S2x512x128))
            (broadcastTo S2x512x128 (chunkMask v0 (Scalar.muli (Scf.iv 0#32 1#32 k) 512#32)) broadcasts_S2x512x1_S2x512x128)))
        0x00000000#32 reduces_S2x512x128_S2x128 (.inl rfl) rfl) shapeCasts_S2x128_S2x1x128) := rfl

/-- One chunk of the second pass at (p, 0, c): the running total plus the squared masked deviations of frames 512 k + r. -/
theorem pay6_apply (v0 : Vec Ideal S2x1x1 .f32) (n : Fin 2 → ℤ)
    (hn : ∀ p : Fin 2, v0 (ix3 p 0 0) = ((n p : ℝ) : EReal)) (v10 : FVec Ideal S2x1x128 .f32) (k : Fin k0_t2_loop.trips)
    (acc : FVec Ideal S2x1x128 .f32) (v25 : Vec Ideal S2x512x128 .f32) (p : Fin 2) (c : Fin 128) :
    k0_pay6 v0 v10 k acc v25 (ix3 p 0 c)
      = acc (ix3 p 0 c) + ∑ r : Fin 512,
          ((v25 (ix3 p r c) - k0_pay4 v0 v10 (ix3 p 0 c)) * ind (n p) (512 * k.val + r.val))
            * ((v25 (ix3 p r c) - k0_pay4 v0 v10 (ix3 p 0 c)) * ind (n p) (512 * k.val + r.val)) := by
  rw [pay6_eq, addf_apply, laneSum_apply, frame_word2]
  refine congrArg (_ + ·) (Finset.sum_congr rfl fun r _ => ?_)
  rw [mulf_apply, mulf_apply, subf_apply, spread_apply, spread_feat, chunkMask_apply v0 n hn k.val (trips2_le k) p r]

/-- The running total of the second pass before chunk k is the sum of the squared masked deviations of the first
    512 k frames of the row from the mean stage's value. -/
theorem sqBefore_apply (x1 : Vec Ideal S2x1x1 .f32) (v10 : FVec Ideal S2x1x128 .f32) (x0 : Vec Ideal S2x4096x128 .f32)
    (n : Fin 2 → ℤ) (hn : ∀ p : Fin 2, x1 (ix3 p 0 0) = ((n p : ℝ) : EReal)) (p : Fin 2) (c : Fin 128) (k : ℕ) (hk : k ≤ 8) :
    sqBefore x1 v10 x0 k (ix3 p 0 c)
      = ∑ l ∈ Finset.range (512 * k), dev (k0_pay4 x1 v10 (ix3 p 0 c)) (row x0 p c) (n p) l
          * dev (k0_pay4 x1 v10 (ix3 p 0 c)) (row x0 p c) (n p) l := by
  induction k with
  | zero =>
    show Ideal.ofBits .f32 0x00000000#32 = _
    rw [Ideal.ofBits_zero_f32]; simp
  | succ k ih =>
    have hk' : k < k0_t2_loop.trips := by rw [trips2]; omega
    rw [sqBefore, dif_pos hk', pay6_apply x1 n hn v10 ⟨k, hk'⟩ _ _ p c, ih (by omega)]
    rw [show 512 * (k + 1) = 512 * k + 512 by ring, Finset.sum_range_add]
    refine congrArg (_ + ·) ?_
    rw [← Fin.sum_univ_eq_sum_range (fun r => dev (k0_pay4 x1 v10 (ix3 p 0 c)) (row x0 p c) (n p) (512 * k + r)
      * dev (k0_pay4 x1 v10 (ix3 p 0 c)) (row x0 p c) (n p) (512 * k + r)) 512]
    refine Finset.sum_congr rfl fun r _ => ?_
    rw [chunk_row x0 _ k (by omega) (k0_off2_eq ⟨k, hk'⟩) _ p r c]
    rfl

/-- The standard deviation stage at (p, 0, c): the root of the total over max (n - 1) 1, clamped from below. -/
theorem sdOf_apply (v0 : Vec Ideal S2x1x1 .f32) (v15 : FVec Ideal S2x1x128 .f32) (p : Fin 2) (c : Fin 128) :
    sdOf v0 v15 (ix3 p 0 c) = std (max (v0 (ix3 p 0 0) - 1) 1) (v15 (ix3 p 0 c)) := by
  show max (Ideal.sqrt (Ideal.div (v15 (ix3 p 0 c)) (broadcastTo S2x1x128
      (maximumf (subf (k0_pay1 v0) (broadcast S2x1x1 (Scalar.ofBits .f32 0x3F800000#32))) (broadcast S2x1x1 (Scalar.ofBits .f32 0x3F800000#32)))
      broadcasts_S2x1x1_S2x1x128 (ix3 p 0 c)))) (Ideal.ofBits .f32 0x2EDBE6FF#32) = _
  rw [broadcastTo_apply _ broadcasts_S2x1x1_S2x1x128 (ix3 p 0 c) (ix3 p 0 0) (fun a => match a with
    | ⟨0, _⟩ => rfl
    | ⟨1, _⟩ => rfl
    | ⟨2, _⟩ => rfl), maximumf_apply, subf_apply, pay1_eq]
  show max (Ideal.sqrt (Ideal.div _ (max (v0 (ix3 p 0 0) - Ideal.ofBits .f32 0x3F800000#32) (Ideal.ofBits .f32 0x3F800000#32)))) _ = _
  rw [one_word]
  rfl

/-! ## The block function at a point -/

/-- THE BLOCK AT (p, l, c): frame l of the row (p, c), normalised with the guarded divisors. -/
theorem block_normed (x0 : Vec Ideal S2x4096x128 .f32) (x1 : Vec Ideal S2x1x1 .f32) (n : Fin 2 → ℤ)
    (hn : ∀ p : Fin 2, x1 (ix3 p 0 0) = ((n p : ℝ) : EReal)) (p : Fin 2) (l : Fin 4096) (c : Fin 128) :
    blockFn (k0_pay4 x1 (sumBefore x1 x0 k0_t1_loop.trips)) (sdOf x1 (sqBefore x1 (sumBefore x1 x0 k0_t1_loop.trips) x0 k0_t2_loop.trips)) x0 (ix3 p l c)
      = normed (dμK (n p)) (dσK (n p)) (row x0 p c) (n p) l.val := by
  show Ideal.div (x0 (ix3 p l c) - k0_pay4 x1 (sumBefore x1 x0 k0_t1_loop.trips) (ix3 p 0 c))
    (sdOf x1 (sqBefore x1 (sumBefore x1 x0 k0_t1_loop.trips) x0 k0_t2_loop.trips) (ix3 p 0 c)) = _
  rw [sdOf_apply, sqBefore_apply x1 _ x0 n hn p c k0_t2_loop.trips (le_of_eq trips2), mean_apply x1 x0 n hn p c, hn,
    (by rw [trips2] : 512 * k0_t2_loop.trips = frames)]
  unfold normed
  rw [row_val]
  rfl

end Cert.KernelIdeal.Sums

end
-- ==== Proof.KernelArray.lean ====
/-
  From blocks to the whole array: what the kernel's result array holds after the run.

  Grid point `t` works on utterances `2 t` and `2 t + 1`: its feature block is those two rows of the feature array, its
  length block the same two entries of the lengths (converted to floats and viewed as a [64, 1, 1] array before the
  launch), and the block it writes back is those two rows of the result. The 32 blocks tile the result array, so the
  array ends as the normalisation of every utterance with the guarded divisors.
-/
import proofs.«123654_j70119636074512_2_alg».proof.Proof.Gen.KernelIdeal.Value
import proofs.«123654_j70119636074512_2_alg».proof.Proof.KernelBlock
import proofs.«123654_j70119636074512_2_alg».proof.Proof.KernelSums
import proofs.«123654_j70119636074512_2_alg».proof.Proof.Spec
import Idealize.ShloMosaic.Lib.Pipeline.Value
import Idealize.ShloMosaic.Lib.ValueIdx
import Idealize.ShloMosaic.Lib.StableHlo.Run

noncomputable section

namespace Cert.KernelIdeal.Arr

open Cert.KernelIdeal Cert.KernelIdeal.Gen Cert.KernelIdeal.Block Cert.FeatNorm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 32 grid points: every window's block number is the point's on the utterance axis and
    zero on the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem point_lt (t : Fin cfg0.N) : t.val < 32 := Nat.lt_of_lt_of_eq t.isLt (show cfg0.N = 32 from N_0)

/-- Where point `t`'s feature block puts (p, l, c): utterance `2 t + p`. -/
theorem blk0_emb (t : Fin cfg0.N) (p : Fin 2) (l : Fin 4096) (c : Fin 128) (h : 2 * t.val + p.val < 64) :
    ((cfg0.win 0).blk t).view.emb (ix3 p l c) = (ix3 ⟨2 * t.val + p.val, h⟩ l c : S64x4096x128.Idx) := by
  obtain ⟨e0, e1, e2, -⟩ := idx_facts t
  funext a; apply Fin.ext
  match a with
  | ⟨0, _⟩ => show win0_0.index t (0 : Fin 3) * 2 + 1 * p.val = 2 * t.val + p.val; omega
  | ⟨1, _⟩ => show win0_0.index t (1 : Fin 3) * 4096 + 1 * l.val = l.val; omega
  | ⟨2, _⟩ => show win0_0.index t (2 : Fin 3) * 128 + 1 * c.val = c.val; omega

/-- The same for the block it writes back. -/
theorem blk2_emb (t : Fin cfg0.N) (p : Fin 2) (l : Fin 4096) (c : Fin 128) (h : 2 * t.val + p.val < 64) :
    ((cfg0.win 2).blk t).view.emb (ix3 p l c) = (ix3 ⟨2 * t.val + p.val, h⟩ l c : S64x4096x128.Idx) := by
  obtain ⟨-, -, -, -, -, -, e0, e1, e2⟩ := idx_facts t
  funext a; apply Fin.ext
  match a with
  | ⟨0, _⟩ => show win0_2.index t (0 : Fin 3) * 2 + 1 * p.val = 2 * t.val + p.val; omega
  | ⟨1, _⟩ => show win0_2.index t (1 : Fin 3) * 4096 + 1 * l.val = l.val; omega
  | ⟨2, _⟩ => show win0_2.index t (2 : Fin 3) * 128 + 1 * c.val = c.val; omega

/-- Where its length block puts (p, 0, 0): entry `2 t + p`. -/
theorem blk1_emb (t : Fin cfg0.N) (p : Fin 2) (h : 2 * t.val + p.val < 64) :
    ((cfg0.win 1).blk t).view.emb (ix3 p 0 0) = (ix3 ⟨2 * t.val + p.val, h⟩ 0 0 : S64x1x1.Idx) := by
  obtain ⟨-, -, -, e0, e1, e2, -⟩ := idx_facts t
  funext a; apply Fin.ext
  match a with
  | ⟨0, _⟩ => show win0_1.index t (0 : Fin 3) * 2 + 1 * p.val = 2 * t.val + p.val; omega
  | ⟨1, _⟩ => show win0_1.index t (1 : Fin 3) * 1 + 1 * 0 = 0; omega
  | ⟨2, _⟩ => show win0_1.index t (2 : Fin 3) * 1 + 1 * 0 = 0; omega

/-- The lengths as the region finds them: converted to floats exactly and viewed as a [64, 1, 1] array. -/
theorem V_len (c : Dev nD) (b : Fin 64) :
    (V m c main_v1 : S64x1x1.Idx → EReal) (ix3 b 0 0) = (((m ((c : Thread nD τ).loc main_arg1) (ix1 b)).toInt : ℝ) : EReal) := by
  have e : (V m c main_v1 : S64x1x1.Idx → EReal)
      = shapeCast S64x1x1 (sitofp (F := Ideal) .f32 (m ((c : Thread nD τ).loc main_arg1))) shapeCasts_S64_S64x1x1 := by
    dsimp only [Gen.V, Gen.hostOps0]
    after_results
    rfl
  rw [e]
  refine (shapeCast_apply _ shapeCasts_S64_S64x1x1 (ix3 b 0 0) (ix1 b) ?_).trans rfl
  rw [Shape.rowMajor_val_one, Shape.rowMajor_val_three]
  show b.val = (b.val * 1 + 0) * 1 + 0
  omega

/-- The lengths as integers. -/
def lenOf (c : Dev nD) : Fin 64 → ℤ := fun b => (m ((c : Thread nD τ).loc main_arg1) (ix1 b)).toInt

/-- What the result array ends holding: every utterance normalised, with the guarded divisors. -/
def G (c : Dev nD) : S64x4096x128.Idx → EReal :=
  normedArr dμK dσK (m ((c : Thread nD τ).loc main_arg0)) (lenOf m c)

/-- WHAT POINT `t` WRITES BACK is block `t` of `G`. -/
theorem flushed_eq (c : Dev nD) (t : Fin cfg0.N) :
    (dats m 0 c).flushed 2 t = ((cfg0.win 2).blk t).view.read (Elt Ideal) (G m c) := by
  rw [Value.flushed2_A, out_block]
  have ht := point_lt t
  funext j
  obtain ⟨p, l, c', rfl⟩ : ∃ (p : Fin 2) (l : Fin 4096) (c' : Fin 128), j = ix3 p l c' := ⟨j 0, j 1, j 2, eq_ix3 j⟩
  have hp : 2 * t.val + p.val < 64 := by have := p.isLt; omega
  show blockFn _ _ (iblk m c 0 t) (ix3 p l c') = G m c (((cfg0.win 2).blk t).view.emb (ix3 p l c'))
  have hn : ∀ q : Fin 2, (iblk m c 1 t) (ix3 q 0 0) = ((((fun q : Fin 2 => lenOf m c ⟨2 * t.val + q.val, by have := q.isLt; omega⟩) q : ℤ) : ℝ) : EReal) := by
    intro q
    have hq : 2 * t.val + q.val < 64 := by have := q.isLt; omega
    show V m c main_v1 (((cfg0.win 1).blk t).view.emb (ix3 q 0 0)) = _
    rw [blk1_emb t q hq, V_len]
    rfl
  rw [Cert.KernelIdeal.Sums.block_normed (iblk m c 0 t) (iblk m c 1 t) _ hn p l c', blk2_emb t p l c' hp]
  have hrow : row (iblk m c 0 t) p c' = row (m ((c : Thread nD τ).loc main_arg0)) (⟨2 * t.val + p.val, hp⟩ : Fin 64) c' := by
    funext l'
    show V m c main_arg0 (((cfg0.win 0).blk t).view.emb (ix3 p (frameOf l') c')) = _
    rw [blk0_emb t p (frameOf l') c' hp, V_main_arg0]
    rfl
  rw [hrow]
  rfl

/-- An index of the result array is in point `t`'s block iff each coordinate is in the block's range on its axis. -/
theorem mem_blk (t : Fin cfg0.N) (i : S64x4096x128.Idx) :
    i ∈ ((cfg0.win 2).blk t).view.set ↔ ∀ a : Fin 3, win0_2.index t a * S2x4096x128.size a ≤ (i a).val ∧ (i a).val < win0_2.index t a * S2x4096x128.size a + S2x4096x128.size a := by
  show i ∈ ((View.whole main_v2).slice (win0_2.rect t)).set ↔ _
  rw [View.set_slice_whole, Rect.mem_set_unit]
  exact Iff.rfl

/-- The 32 blocks cover the result array: utterance `b` is in the block of point `b / 2`. -/
theorem cover (c : Dev nD) (i : S64x4096x128.Idx) :
    ∃ t : Fin cfg0.N, (cfg0.win 2).flush t = true ∧ i ∈ ((cfg0.win 2).blk t).view.set := by
  have h0 : (i 0).val < 64 := (i 0).isLt
  have h1 : (i 1).val < 4096 := (i 1).isLt
  have h2 : (i 2).val < 128 := (i 2).isLt
  let t : Fin cfg0.N := ⟨(i 0).val / 2, by show (i 0).val / 2 < grid0.N; rw [N_0]; omega⟩
  refine ⟨t, flush0_2 t, ?_⟩
  obtain ⟨-, -, -, -, -, -, e0, e1, e2⟩ := idx_facts t
  have ht : t.val = (i 0).val / 2 := rfl
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- THE RESULT ARRAY after the run. -/
theorem final (c : Dev nD) : (dats m 0 c).arrAt 2 cfg0.N = G m c :=
  (dats m 0 c).arrAt_eq_of_cover 2 (G m c) (fun t _ => flushed_eq m c t) (cover c)

/-- THE KERNEL'S RUN: every weakly fair execution ends with the result array at the normalisation with the guarded
    divisors of the launch contents of the two arguments, which end unchanged. -/
theorem run : θ_run defs (onTc (τ := τ) (main (F := Ideal))) ⟨m, fun _ => 0, ρ⟩ fun r => ∀ c : Dev nD,
      r.2.mem ((c.tc : Thread nD τ).loc main_v2)
        = normedArr dμK dσK (m ((c.tc : Thread nD τ).loc main_arg0)) (fun b => (m ((c.tc : Thread nD τ).loc main_arg1) (ix1 b)).toInt)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (final m c), (h c).2⟩) (Value.run_blocks m ρ)

end Cert.KernelIdeal.Arr

end
-- ==== Proof.MaskedStats.lean ====
/-
  The guarded divisors `max n 1` and `max (n - 1) 1` give the same normalised row as the plain divisors
  `n` and `n - 1` whenever the length `n` is not zero and the row is finite.

  For `n ≥ 1` the mean divisors coincide; for `n < 0` every mask is 0, so the masked sum is 0 and both
  means are 0 over a nonzero divisor. With the common mean the two sums of squares are one term. For
  `n ≥ 2` the variance divisors coincide; for `n < 0` the sum of squares is 0 over nonzero divisors; for
  `n = 1` the only valid frame equals the mean, the sum of squares is 0, the guarded variance is
  `0 / 1 = 0` and the plain one `0 / 0 = ⊥`, and both standard deviations come out as the clamp.
-/
import proofs.«123654_j70119636074512_2_alg».proof.Proof.Spec

noncomputable section

namespace Cert.FeatNorm

open Idealize.ShloMosaic

/-- The f32 word `0x3F800000` is the number one. -/
theorem one_word : Ideal.ofBits .f32 0x3F800000#32 = (1 : EReal) := by
  simp [Ideal.ofBits, Ideal.ieee]
  rw [← EReal.coe_mul, ← EReal.coe_one, EReal.coe_eq_coe_iff]
  norm_num

/-- The clamp is a positive normal f32, in particular not negative. -/
theorem clampC_nonneg : (0 : EReal) ≤ clampC := by
  unfold clampC
  simp [Ideal.ofBits, Ideal.ieee]
  rw [← EReal.coe_mul]
  exact EReal.coe_nonneg.mpr (by positivity)

theorem ind_of_lt {n : ℤ} {l : ℕ} (h : (l : ℤ) < n) : ind n l = 1 := by
  simp [ind, h]

theorem ind_of_not_lt {n : ℤ} {l : ℕ} (h : ¬ (l : ℤ) < n) : ind n l = 0 := by
  simp [ind, h]

/-- With a length that is not positive every frame is padding. -/
theorem ind_of_nonpos {n : ℤ} (hn : n ≤ 0) (l : ℕ) : ind n l = 0 :=
  ind_of_not_lt (by omega)

theorem msum_eq_zero_of_nonpos (x : ℕ → EReal) {n : ℤ} (hn : n ≤ 0) : msum x n = 0 := by
  unfold msum
  apply Finset.sum_eq_zero
  intro l _
  rw [ind_of_nonpos hn, mul_zero]

theorem sqsum_eq_zero_of_nonpos (μ : EReal) (x : ℕ → EReal) {n : ℤ} (hn : n ≤ 0) : sqsum μ x n = 0 := by
  unfold sqsum dev
  apply Finset.sum_eq_zero
  intro l _
  rw [ind_of_nonpos hn, mul_zero, mul_zero]

/-- Zero over a nonzero divisor is zero. -/
theorem div_zero_left {y : EReal} (hy : y ≠ 0) : Ideal.div 0 y = 0 := by
  simp [Ideal.div, hy]

/-- An integer minus one, in the extended reals. -/
theorem coe_int_sub_one (n : ℤ) : ((n : ℝ) : EReal) - 1 = (((n - 1 : ℤ) : ℝ) : EReal) := by
  rw [← EReal.coe_one, ← EReal.coe_sub]
  push_cast
  rfl

theorem dμK_ne_zero (n : ℤ) : dμK n ≠ 0 := by
  have h : (0 : EReal) < dμK n := lt_of_lt_of_le zero_lt_one (le_max_right _ _)
  exact ne_of_gt h

theorem dσK_ne_zero (n : ℤ) : dσK n ≠ 0 := by
  have h : (0 : EReal) < dσK n := lt_of_lt_of_le zero_lt_one (le_max_right _ _)
  exact ne_of_gt h

theorem dμR_ne_zero {n : ℤ} (hn : n ≠ 0) : dμR n ≠ 0 := by
  unfold dμR
  exact_mod_cast hn

theorem dσR_ne_zero {n : ℤ} (hn : n ≠ 1) : dσR n ≠ 0 := by
  unfold dσR
  rw [coe_int_sub_one]
  have : n - 1 ≠ 0 := by omega
  exact_mod_cast this

/-- From length one on the guard of the mean divisor is idle. -/
theorem dμK_eq_of_pos {n : ℤ} (hn : 1 ≤ n) : dμK n = dμR n := by
  unfold dμK dμR
  apply max_eq_left
  exact_mod_cast hn

/-- From length two on the guard of the variance divisor is idle. -/
theorem dσK_eq_of_two_le {n : ℤ} (hn : 2 ≤ n) : dσK n = dσR n := by
  unfold dσK dσR
  apply max_eq_left
  rw [coe_int_sub_one]
  have : (1 : ℤ) ≤ n - 1 := by omega
  exact_mod_cast this

/-- The two means agree for every nonzero length. -/
theorem mean_guard_eq (x : ℕ → EReal) {n : ℤ} (hn : n ≠ 0) : mean (dμK n) x n = mean (dμR n) x n := by
  rcases lt_or_gt_of_ne hn with h | h
  · unfold mean
    rw [msum_eq_zero_of_nonpos x (le_of_lt h), div_zero_left (dμK_ne_zero n), div_zero_left (dμR_ne_zero hn)]
  · rw [dμK_eq_of_pos (by omega)]

/-- With length one only frame 0 is counted. -/
theorem msum_one (x : ℕ → EReal) : msum x 1 = x 0 := by
  unfold msum
  rw [Finset.sum_eq_single 0]
  · rw [ind_of_lt (by norm_num), mul_one]
  · intro l _ hl
    rw [ind_of_not_lt (by omega), mul_zero]
  · intro h
    exact absurd (Finset.mem_range.mpr (by norm_num [frames])) h

/-- With length one the mean is frame 0 itself. -/
theorem mean_one (x : ℕ → EReal) : mean (dμR 1) x 1 = x 0 := by
  unfold mean dμR
  rw [msum_one]
  simp [Ideal.div]

/-- With length one and a finite frame 0, every masked deviation from the mean is zero. -/
theorem sqsum_one {x : ℕ → EReal} {r : ℝ} (h0 : x 0 = (r : EReal)) : sqsum (x 0) x 1 = 0 := by
  unfold sqsum
  apply Finset.sum_eq_zero
  intro l _
  have hd : dev (x 0) x 1 l = 0 := by
    unfold dev
    rcases Nat.eq_zero_or_pos l with rfl | hl
    · rw [h0, ← EReal.coe_sub, sub_self, EReal.coe_zero, zero_mul]
    · rw [ind_of_not_lt (by omega), mul_zero]
  rw [hd, mul_zero]

theorem one_sub_one : (1 : EReal) - 1 = 0 := by
  rw [← EReal.coe_one, ← EReal.coe_sub, sub_self, EReal.coe_zero]

theorem sqrt_zero : Ideal.sqrt 0 = 0 := by
  rw [← EReal.coe_zero, Ideal.sqrt_coe]
  simp

/-- Length one, guarded: the variance is `0 / 1 = 0`, its root 0, and the clamp wins. -/
theorem std_one_K : std (dσK 1) 0 = clampC := by
  have h : dσK 1 = 1 := by
    unfold dσK
    simp [one_sub_one]
  unfold std
  rw [h]
  simp [Ideal.div, sqrt_zero, clampC_nonneg]

/-- Length one, plain: the variance is `0 / 0 = ⊥`, its root `⊥`, and the clamp wins. -/
theorem std_one_R : std (dσR 1) 0 = clampC := by
  have h : dσR 1 = 0 := by
    unfold dσR
    simp [one_sub_one]
  unfold std
  rw [h]
  simp [Ideal.div]

/-- The two standard deviations around the common mean agree for every nonzero length. -/
theorem std_guard_eq {x : ℕ → EReal} (hx : ∃ r : ℝ, x 0 = (r : EReal)) {n : ℤ} (hn : n ≠ 0) :
    std (dσK n) (sqsum (mean (dμR n) x n) x n) = std (dσR n) (sqsum (mean (dμR n) x n) x n) := by
  rcases lt_trichotomy n 1 with h | h | h
  · have hn' : n ≤ 0 := by omega
    have hn1 : n ≠ 1 := by omega
    rw [sqsum_eq_zero_of_nonpos _ x hn']
    unfold std
    rw [div_zero_left (dσK_ne_zero n), div_zero_left (dσR_ne_zero hn1)]
  · subst h
    obtain ⟨r, h0⟩ := hx
    rw [mean_one, sqsum_one h0, std_one_K, std_one_R]
  · rw [dσK_eq_of_two_le (by omega)]

/-- The guarded divisors change nothing when the length is not zero and the row is finite. -/
theorem normed_guard_eq (x : ℕ → EReal) (n : ℤ) (hx : ∀ l, l < 4096 → ∃ r : ℝ, x l = (r : EReal)) (hn : n ≠ 0) (l : ℕ) :
    normed (dμK n) (dσK n) x n l = normed (dμR n) (dσR n) x n l := by
  unfold normed
  rw [mean_guard_eq x hn, std_guard_eq (hx 0 (by norm_num)) hn]

end Cert.FeatNorm

end
-- ==== Proof.PreFacts.lean ====
/-
  What the precondition says of the two argument arrays. The printed predicate is the conjunction of two
  reductions by `and`: over `|feat| < +∞` at every entry of the feature array, and over `feat_len ≠ 0` at every
  entry of the length array. A reduction by `and` that is 1 met a 1 at every entry; `|x| < +∞` on the
  extended reals excludes `⊤` and `⊥`, so `x` is a real; and the comparison `≠` against the broadcast word 0
  being 1 says the length word is not 0.
-/
import proofs.«123654_j70119636074512_2_alg».proof.Pre_finite_inputs
import proofs.«123654_j70119636074512_2_alg».proof.Proof.Gen.Pre_finite_inputs
import Idealize.ShloMosaic.PureOps.Ideal
import Idealize.ShloMosaic.Lib.ReduceAll
import Idealize.ShloMosaic.Lib.ValueIdx

noncomputable section

namespace Cert.PreFacts

open Idealize.ShloMosaic Cert.Pre_finite_inputs

/-- The scalar shape has one index. -/
instance : Subsingleton S_.Idx := ⟨fun a b => funext fun d => d.elim0⟩

theorem ofBool_eq_one (b : Bool) : BitVec.ofBool b = 1#1 ↔ b = true := by cases b <;> decide

/-- The f32 word `0x7F800000` is `+∞`. -/
theorem inf_word : Ideal.ofBits .f32 0x7F800000#32 = (⊤ : EReal) := by
  simp [Ideal.ofBits, Ideal.ieee]

/-- `|x| < +∞` says `x` is a real. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  rw [ofBool_eq_one] at h
  simp only [decide_eq_true_eq] at h
  induction x using EReal.rec with
  | bot => simp at h
  | coe r => exact ⟨r, rfl⟩
  | top => simp at h

/-- The comparison `≠` being 1 says the words differ. -/
theorem ne_of_cmpi_ne (a b : BitVec 32) (h : IntOp.cmpi .ne a b = 1#1) : a ≠ b := by
  unfold IntOp.cmpi at h
  rw [ofBool_eq_one] at h
  simpa using h

theorem pre_facts [Cert.Pre_finite_inputs.Facts] (A0 : FVec Ideal Cert.Pre_finite_inputs.S64x4096x128 .f32) (A1 : IVec Cert.Pre_finite_inputs.S64 32)
    (h : Cert.Pre_finite_inputs.fn (F := Ideal) A0 A1 = fun _ => 1#1) :
    (∀ i, ∃ r : ℝ, A0 i = (r : EReal)) ∧ (∀ j, A1 j ≠ 0#32) := by
  have e := congrFun h ValueIdx.ix0
  dsimp only [Cert.Pre_finite_inputs.fn] at e
  obtain ⟨e1, e2⟩ := IntOp.andi_eq_one.1 e
  refine ⟨fun i => ?_, fun j => ?_⟩
  · have hi := Host.reduce_andi_all _ _ _ _ _ e1 i
    exact real_of_abs_lt_inf (A0 i) hi
  · have hj := Host.reduce_andi_all _ _ _ _ _ e2 j
    exact ne_of_cmpi_ne _ _ hj

end Cert.PreFacts

end
-- ==== Proof.RefRead.lean ====
/-
  The reference program, read at an index, is the specification's normalised array with the plain divisors.

  Each stage of the reference is read at the coordinates (b, l, c) of an index: the mask stage is the
  indicator of l < len b, the first sum over the frames divided by the length is the masked mean, the second
  sum over the squared masked deviations divided by the length minus one is the variance, its square root
  clamped from below is the standard deviation, and the result is the deviation over the standard deviation.
-/
import proofs.«123654_j70119636074512_2_alg».proof.Proof.Gen.ReferenceIdeal.Read
import proofs.«123654_j70119636074512_2_alg».proof.Proof.Spec
import Idealize.ShloMosaic.Lib.ValueIdx
import Idealize.ShloMosaic.PureOps.Ideal.Laws

noncomputable section

namespace Cert.RefRead

open Cert.ReferenceIdeal Cert.ReferenceIdeal.Read Cert.FeatNorm Idealize.ShloMosaic Idealize.ShloMosaic.ValueIdx

/-- The word 0x3F800000 denotes one. -/
theorem one_word : Ideal.ofBits .f32 0x3F800000#32 = (1 : EReal) := by
  simp [Ideal.ofBits, Ideal.ieee, -EReal.coe_mul]; norm_num

/-- A frame number, as a 32-bit word read signed, is itself. -/
theorem toInt_frame (l : Fin 4096) : (BitVec.ofNat 32 l.val).toInt = (l.val : ℤ) := by
  have h := l.isLt
  rw [BitVec.toInt_eq_toNat_cond, BitVec.toNat_ofNat]
  have h2 : l.val % 2 ^ 32 = l.val := Nat.mod_eq_of_lt (by omega)
  rw [h2, if_pos (by omega)]

/-- The signed comparison of a frame number with a length word, converted to a float, is the indicator of the
    valid frames. -/
theorem mask_word (l : Fin 4096) (w : BitVec 32) :
    FloatOps.uitofp (F := Ideal) .f32 (IntOp.cmpi .slt (BitVec.ofNat 32 l.val) w) = ind w.toInt l.val := by
  show (((IntOp.cmpi .slt (BitVec.ofNat 32 l.val) w).toNat : ℝ) : EReal) = _
  unfold IntOp.cmpi ind
  simp only [BitVec.slt, toInt_frame]
  by_cases h : (l.val : ℤ) < w.toInt
  · simp [h]
  · simp [h]

section Stages

variable (X : (⟨S64x4096x128, .f32⟩ : BufTy).Contents (Elt Ideal)) (len : (⟨S64, .i32⟩ : BufTy).Contents (Elt Ideal))

/-- The mask stage at (b, l, c) is the indicator of l < len b. -/
theorem mask_at (b : Fin 64) (l : Fin 4096) (c : Fin 128) :
    val_main_v10 (F := Ideal) len (ix3 b l c) = ind (len (ix1 b)).toInt l.val := by
  rw [val_main_v10_apply, val_main_v7_apply, val_main_v6_apply, val_main_v5_apply, val_main_v3_apply,
    val_main_v1_apply, val_main_v0_apply, val_main_v4_apply, val_main_v2_apply]
  have h1 : idx_main_v2 (idx_main_v4 (idx_main_v7 (idx_main_v10 (ix3 b l c)))) = ix1 b := by
    funext a; match a with | ⟨0, _⟩ => rfl
  rw [h1]
  exact mask_word l _

/-- Its second broadcast is the same function. -/
theorem mask_at' (b : Fin 64) (l : Fin 4096) (c : Fin 128) :
    val_main_v18 (F := Ideal) len (ix3 b l c) = ind (len (ix1 b)).toInt l.val := mask_at len b l c

/-- The length as a float, at (b, c). -/
theorem len_at (b : Fin 64) (c : Fin 128) :
    val_main_v13 (F := Ideal) len (ix2 b c) = (((len (ix1 b)).toInt : ℝ) : EReal) := by
  rw [val_main_v13_apply, val_main_v9_apply, val_main_v8_apply]
  have h1 : idx_main_v9 (idx_main_v13 (ix2 b c)) = ix1 b := by
    funext a; match a with | ⟨0, _⟩ => rfl
  rw [h1]; rfl

/-- The first quotient at (b, c) is the masked mean over the length. -/
theorem mean_at (b : Fin 64) (c : Fin 128) :
    val_main_v14 (F := Ideal) X len (ix2 b c)
      = mean (dμR (len (ix1 b)).toInt) (row X b c) (len (ix1 b)).toInt := by
  rw [val_main_v14_apply, val_main_v12_apply, len_at, val_main_cst_apply]
  simp only [Ideal.hostDivf_def, Ideal.ofBits_def, Ideal.ofBits_zero_f32, zero_add]
  unfold mean msum dμR
  congr 1
  rw [← Fin.sum_univ_eq_sum_range (fun l => row X b c l * ind (len (ix1 b)).toInt l) frames]
  refine Finset.sum_congr rfl fun k _ => ?_
  have h1 : idx_main_v12 (ix2 b c) k = ix3 b k c := by
    funext a; match a with | ⟨0, _⟩ => rfl | ⟨1, _⟩ => rfl | ⟨2, _⟩ => rfl
  rw [h1, val_main_v11_apply, mask_at, row_val]; rfl

end Stages

section Stages2

variable (X : (⟨S64x4096x128, .f32⟩ : BufTy).Contents (Elt Ideal)) (len : (⟨S64, .i32⟩ : BufTy).Contents (Elt Ideal))

/-- The length minus one, at (b, c). -/
theorem len_pred_at (b : Fin 64) (c : Fin 128) :
    val_main_v24 (F := Ideal) len (ix2 b c) = dσR (len (ix1 b)).toInt := by
  rw [val_main_v24_apply, val_main_v23_apply, val_main_v9_apply, val_main_v8_apply, val_main_v22_apply,
    val_main_cst_1_apply]
  have h1 : idx_main_v9 (idx_main_v24 (ix2 b c)) = ix1 b := by
    funext a; match a with | ⟨0, _⟩ => rfl
  rw [h1]
  simp only [Ideal.subf_def, Ideal.ofBits_def, one_word]
  rfl

/-- The masked deviation stage at (b, l, c). -/
theorem dev_at (b : Fin 64) (l : Fin 4096) (c : Fin 128) :
    val_main_v19 (F := Ideal) X len (ix3 b l c)
      = dev (mean (dμR (len (ix1 b)).toInt) (row X b c) (len (ix1 b)).toInt) (row X b c) (len (ix1 b)).toInt l.val := by
  rw [val_main_v19_apply, val_main_v17_apply, val_main_v16_apply, val_main_v15_apply, mask_at']
  have h1 : idx_main_v15 (idx_main_v16 (ix3 b l c)) = ix2 b c := by
    funext a; match a with | ⟨0, _⟩ => rfl | ⟨1, _⟩ => rfl
  rw [h1, mean_at]
  unfold dev
  rw [row_val]; rfl

/-- The second quotient at (b, c) is the sum of the squared masked deviations over the length minus one. -/
theorem var_at (b : Fin 64) (c : Fin 128) :
    val_main_v25 (F := Ideal) X len (ix2 b c)
      = Ideal.div (sqsum (mean (dμR (len (ix1 b)).toInt) (row X b c) (len (ix1 b)).toInt) (row X b c) (len (ix1 b)).toInt)
          (dσR (len (ix1 b)).toInt) := by
  rw [val_main_v25_apply, val_main_v21_apply, len_pred_at, val_main_cst_0_apply]
  simp only [Ideal.hostDivf_def, Ideal.ofBits_def, Ideal.ofBits_zero_f32, zero_add]
  unfold sqsum
  congr 1
  rw [← Fin.sum_univ_eq_sum_range (fun l =>
    dev (mean (dμR (len (ix1 b)).toInt) (row X b c) (len (ix1 b)).toInt) (row X b c) (len (ix1 b)).toInt l
      * dev (mean (dμR (len (ix1 b)).toInt) (row X b c) (len (ix1 b)).toInt) (row X b c) (len (ix1 b)).toInt l) frames]
  refine Finset.sum_congr rfl fun k _ => ?_
  have h1 : idx_main_v21 (ix2 b c) k = ix3 b k c := by
    funext a; match a with | ⟨0, _⟩ => rfl | ⟨1, _⟩ => rfl | ⟨2, _⟩ => rfl
  rw [h1, val_main_v20_apply, dev_at]; rfl

/-- The clamped square root at (b, c) is the standard deviation. -/
theorem std_at (b : Fin 64) (c : Fin 128) :
    val_main_v28 (F := Ideal) X len (ix2 b c)
      = std (dσR (len (ix1 b)).toInt)
          (sqsum (mean (dμR (len (ix1 b)).toInt) (row X b c) (len (ix1 b)).toInt) (row X b c) (len (ix1 b)).toInt) := by
  rw [val_main_v28_apply, val_main_v26_apply, var_at, val_main_v27_apply, val_main_cst_2_apply]
  simp only [Ideal.maximumf_def, Ideal.hostUnary_sqrt_def, Ideal.ofBits_def]
  rfl

end Stages2

/-- The reference's result is the normalised array with the plain divisors. -/
theorem ref_eq (X : (⟨S64x4096x128, .f32⟩ : BufTy).Contents (Elt Ideal)) (len : (⟨S64, .i32⟩ : BufTy).Contents (Elt Ideal)) :
    val_main_v34 (F := Ideal) X len
      = normedArr dμR dσR X (fun b => (len (ix1 b)).toInt) := by
  funext i
  obtain ⟨b, l, c, rfl⟩ : ∃ b l c, i = ix3 b l c := ⟨i 0, i 1, i 2, eq_ix3 i⟩
  rw [val_main_v34_apply, val_main_v31_apply, val_main_v30_apply, val_main_v29_apply, val_main_v33_apply,
    val_main_v32_apply]
  have h1 : idx_main_v29 (idx_main_v30 (ix3 b l c)) = ix2 b c := by
    funext a; match a with | ⟨0, _⟩ => rfl | ⟨1, _⟩ => rfl
  have h2 : idx_main_v32 (idx_main_v33 (ix3 b l c)) = ix2 b c := by
    funext a; match a with | ⟨0, _⟩ => rfl | ⟨1, _⟩ => rfl
  rw [h1, h2, mean_at, std_at]
  simp only [Ideal.hostDivf_def, Ideal.subf_def]
  show _ = normed _ _ (row X b c) _ l.val
  unfold normed
  rw [row_val]

end Cert.RefRead

end
-- ==== Proof.Claims.lean ====
/-
  The five claims, assembled. The two kernels' frames are the generated ones and the reference's frame is its
  generated run with the result dropped. For the value claim the kernel's run is taken as a hypothesis: it ends
  with the normalised array under the guarded divisors `max n 1`, `max (n - 1) 1`. The reference's run ends with
  the normalised array under the plain divisors `n`, `n - 1`. The precondition makes every feature a real and
  every length word nonzero, hence every length, read as a signed integer, nonzero; and for a nonzero length and
  a finite row the guards change nothing. So from agreeing arguments the two results are one array.
-/
import proofs.«123654_j70119636074512_2_alg».proof.Defs
import proofs.«123654_j70119636074512_2_alg».proof.Proof.Gen.Kernel.Frame
import proofs.«123654_j70119636074512_2_alg».proof.Proof.Gen.KernelIdeal.Frame
import proofs.«123654_j70119636074512_2_alg».proof.Proof.Gen.ReferenceIdeal.Run
import proofs.«123654_j70119636074512_2_alg».proof.Proof.Gen.ReferenceIdeal.Read
import proofs.«123654_j70119636074512_2_alg».proof.Proof.Gen.Pre_finite_inputs
import proofs.«123654_j70119636074512_2_alg».proof.Proof.Gen.Kernel
import proofs.«123654_j70119636074512_2_alg».proof.Proof.Gen.KernelIdeal
import proofs.«123654_j70119636074512_2_alg».proof.Proof.Gen.ReferenceIdeal
import proofs.«123654_j70119636074512_2_alg».proof.Proof.Spec
import proofs.«123654_j70119636074512_2_alg».proof.Proof.MaskedStats
import proofs.«123654_j70119636074512_2_alg».proof.Proof.PreFacts
import proofs.«123654_j70119636074512_2_alg».proof.Proof.RefRead

noncomputable section

open Idealize.ShloMosaic Idealize.ShloMosaic.TcCoe Idealize.SL.Sem

namespace Cert.FeatNorm

/-- A nonzero 32-bit word, read as a signed integer, is not zero. -/
theorem toInt_ne_zero (w : BitVec 32) (h : w ≠ 0#32) : w.toInt ≠ 0 :=
  fun h0 => h (BitVec.toInt_inj.1 (h0.trans BitVec.toInt_zero.symm))

/-- On a finite array with nonzero lengths the guarded and the plain divisors give one normalised array. -/
theorem normedArr_guard_eq (X : (⟨3, ![64, frames, 128]⟩ : Shape).Idx → EReal) (len : Fin 64 → ℤ)
    (hX : ∀ i, ∃ r : ℝ, X i = (r : EReal)) (hlen : ∀ b, len b ≠ 0) :
    normedArr dμK dσK X len = normedArr dμR dσR X len := by
  funext i
  unfold normedArr
  exact normed_guard_eq _ _ (fun l _ => hX _) (hlen _) _

end Cert.FeatNorm

namespace Cert.Proof.Claims

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2)
    (Cert.ReferenceIdeal.Value.run (F := Ideal) m ρ)

/-- From the kernel's run ending at the normalised array with the guarded divisors: both programs, from agreeing
    arguments of which the precondition holds, end with equal results and unchanged arguments. -/
theorem algebraic_of_run
    (hrun : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v2)
          = Cert.FeatNorm.normedArr Cert.FeatNorm.dμK Cert.FeatNorm.dσK (m ((c.tc : Thread Cert.KernelIdeal.nD Cert.KernelIdeal.τ).loc Cert.KernelIdeal.main_arg0))
              (fun b => (m ((c.tc : Thread Cert.KernelIdeal.nD Cert.KernelIdeal.τ).loc Cert.KernelIdeal.main_arg1) (Idealize.ShloMosaic.ValueIdx.ix1 b)).toInt)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal := by
  intro m ρ m' ρ' hpre hagree
  have hfacts := fun c => Cert.PreFacts.pre_facts _ _ (hpre c)
  refine ⟨fun c => Cert.FeatNorm.normedArr Cert.FeatNorm.dμK Cert.FeatNorm.dσK (m ((c.tc : Thread Cert.KernelIdeal.nD Cert.KernelIdeal.τ).loc Cert.KernelIdeal.main_arg0))
      (fun b => (m ((c.tc : Thread Cert.KernelIdeal.nD Cert.KernelIdeal.τ).loc Cert.KernelIdeal.main_arg1) (Idealize.ShloMosaic.ValueIdx.ix1 b)).toInt),
    fun c => m ((c.tc : Thread Cert.KernelIdeal.nD Cert.KernelIdeal.τ).loc Cert.KernelIdeal.main_arg1), ?_, ?_⟩
  · exact (θ_run _ _ _).mono (fun _ h c => ⟨(h c).1, (h c).2.2, (h c).2.1, (h c).2.2⟩) (hrun m ρ)
  · refine (θ_run Cert.ReferenceIdeal.defs _ _).mono
      (fun _ h c => ⟨(h c).1.trans ?_, (h c).2.1.trans (hagree c).2, (h c).2.2.1, (h c).2.2.2⟩)
      (Cert.ReferenceIdeal.Value.run (F := Ideal) m' ρ')
    rw [Cert.ReferenceIdeal.Read.val_main_v34_eq, Cert.RefRead.ref_eq, (hagree c).1, (hagree c).2]
    exact (Cert.FeatNorm.normedArr_guard_eq _ _ (hfacts c).1
      (fun b => Cert.FeatNorm.toInt_ne_zero _ ((hfacts c).2 _))).symm

/-- The kernel's run as the value claim takes it: every execution ends with the result at the normalised array
    under the guarded divisors and the two arguments unchanged. -/
abbrev KernelRun : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2)
        = Cert.FeatNorm.normedArr Cert.FeatNorm.dμK Cert.FeatNorm.dσK (m ((c.tc : Thread Cert.KernelIdeal.nD Cert.KernelIdeal.τ).loc Cert.KernelIdeal.main_arg0))
            (fun b => (m ((c.tc : Thread Cert.KernelIdeal.nD Cert.KernelIdeal.τ).loc Cert.KernelIdeal.main_arg1) (Idealize.ShloMosaic.ValueIdx.ix1 b)).toInt)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

/-- All five claims from the kernel's run. -/
theorem claim_of_run (hrun : KernelRun) : Cert.Claim :=
  ⟨Cert.Kernel.Gen.facts, Cert.KernelIdeal.Gen.facts, Cert.ReferenceIdeal.Gen.facts, Cert.Pre_finite_inputs.Gen.facts,
    frame_p, frame_pi, frame_ri, trivial, algebraic_of_run hrun⟩

end Cert.Proof.Claims

end
-- ==== Proof.lean ====
/-
  Utterance-level feature normalisation: a kernel against its plain reference, equal as extended reals.

  Each of 64 utterances is a [4096 frames, 128 features] array of which only the first `n` frames are valid. Per
  feature, both programs take the mean of the valid frames, the unbiased variance of the valid frames about it, and
  return every frame minus the mean over the standard deviation clamped from below at `1e-10`. The reference
  divides by `n` and by `n - 1`; the kernel divides by `max n 1` and by `max (n - 1) 1`, and takes each sum in
  eight chunks of 512 frames, two utterances per grid point.

  Sums of extended reals may be taken in any order and grouping, so the chunking changes nothing. The guards do
  not either when `n ≠ 0` and the features are finite: for `n ≥ 2` they are inactive; for `n < 0` no frame is valid,
  both sums are zero and zero over a nonzero divisor is zero; for `n = 1` the one valid frame is its own mean, the
  sum of squares is zero, the guarded variance is `0 / 1 = 0` and the plain one `0 / 0`, whose conventional value
  is the bottom element, as is its root, so both standard deviations are the clamp. At `n = 0` the reference's
  mean is `0 / 0` and the two results differ: the precondition excludes a zero length.

  The modules: `Spec` states the normalisation as plain functions; `MaskedStats` proves that the guards change
  nothing; `RefRead` reads the reference's operations at an index; `KernelBlock` opens the kernel body's three
  passes and `KernelSums` reads their totals; `KernelArray` goes from the 32 blocks to the whole result array;
  `PreFacts` reads the precondition; `Claims` assembles the five claims.
-/
import proofs.«123654_j70119636074512_2_alg».proof.Defs
import proofs.«123654_j70119636074512_2_alg».proof.Proof.Gen.Kernel
import proofs.«123654_j70119636074512_2_alg».proof.Proof.Gen.Kernel.Skeleton
import proofs.«123654_j70119636074512_2_alg».proof.Proof.Gen.Kernel.Loops
import proofs.«123654_j70119636074512_2_alg».proof.Proof.Gen.Kernel.Launch
import proofs.«123654_j70119636074512_2_alg».proof.Proof.Gen.Kernel.Points
import proofs.«123654_j70119636074512_2_alg».proof.Proof.Gen.Kernel.Frame
import proofs.«123654_j70119636074512_2_alg».proof.Proof.Gen.KernelIdeal
import proofs.«123654_j70119636074512_2_alg».proof.Proof.Gen.KernelIdeal.Skeleton
import proofs.«123654_j70119636074512_2_alg».proof.Proof.Gen.KernelIdeal.Loops
import proofs.«123654_j70119636074512_2_alg».proof.Proof.Gen.KernelIdeal.Launch
import proofs.«123654_j70119636074512_2_alg».proof.Proof.Gen.KernelIdeal.Points
import proofs.«123654_j70119636074512_2_alg».proof.Proof.Gen.KernelIdeal.Frame
import proofs.«123654_j70119636074512_2_alg».proof.Proof.Gen.ReferenceIdeal
import proofs.«123654_j70119636074512_2_alg».proof.Proof.Gen.Pre_finite_inputs
import proofs.«123654_j70119636074512_2_alg».proof.Proof.Gen.KernelIdeal.Value
import proofs.«123654_j70119636074512_2_alg».proof.Proof.Gen.ReferenceIdeal.Run
import proofs.«123654_j70119636074512_2_alg».proof.Proof.Gen.ReferenceIdeal.Read
import proofs.«123654_j70119636074512_2_alg».proof.Proof.KernelArray
import proofs.«123654_j70119636074512_2_alg».proof.Proof.Claims
import Idealize.ShloMosaic.Adequacy
import Idealize.ShloMosaic.Init

noncomputable section

namespace Cert.Proof

open Idealize.ShloMosaic Idealize.SL.Sem Cert.Kernel

theorem claim : Cert.Claim :=
  Cert.Proof.Claims.claim_of_run fun m ρ => Cert.KernelIdeal.Arr.run m ρ

end Cert.Proof

end
